-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_
  bcast_S_S8192x8192 : S_.BroadcastsInDim S8192x8192 (![] : Fin 0 → Fin S8192x8192.rank)
  reducesTo_S8192x8192_S8192_d1 : S8192x8192.ReducesTo [1] S8192
  reducesTo_S8192_S_d0 : S8192.ReducesTo [0] S_

variable [Facts]

def fn_part2 {F : FTy → Type} [FloatOps F] (main_arg1 : IVec S8192x8192 32) (main_arg8 : FVec F S64x2 .f32) (main_arg9 : FVec F S2 .f32) (main_v33 : IVec S_ 1) : IVec S_ 1 :=
  let main_v34 : FVec F S64x2 .f32 := Host.absf main_arg8
  let main_cst_12 : FVec F S_ .f32 := constant S_ .f32 0x7F800000#32
  let main_v35 : FVec F S64x2 .f32 := broadcastInDim S64x2 ![] bcast_S_S64x2 main_cst_12
  let main_v36 : IVec S64x2 1 := cmpf .olt main_v34 main_v35
  let main_c_13 : IVec S_ 1 := constantI S_ 1 1#1
  let main_v37 : IVec S_ 1 := (fun x v => Host.reduce IntOp.andi x v reducesTo_S64x2_S_d0_1 h_S_) main_v36 main_c_13
  let main_v38 : IVec S_ 1 := andi main_v33 main_v37
  let main_v39 : FVec F S2 .f32 := Host.absf main_arg9
  let main_cst_14 : FVec F S_ .f32 := constant S_ .f32 0x7F800000#32
  let main_v40 : FVec F S2 .f32 := broadcastInDim S2 ![] bcast_S_S2 main_cst_14
  let main_v41 : IVec S2 1 := cmpf .olt main_v39 main_v40
  let main_c_15 : IVec S_ 1 := constantI S_ 1 1#1
  let main_v42 : IVec S_ 1 := (fun x v => Host.reduce IntOp.andi x v reducesTo_S2_S_d0 h_S_) main_v41 main_c_15
  let main_v43 : IVec S_ 1 := andi main_v38 main_v42
  let main_c_16 : IVec S_ 32 := constantI S_ 32 0#32
  let main_v44 : IVec S8192x8192 32 := broadcastInDim S8192x8192 ![] bcast_S_S8192x8192 main_c_16
  let main_v45 : IVec S8192x8192 1 := cmpi .sgt main_arg1 main_v44
  let main_c_17 : IVec S_ 1 := constantI S_ 1 0#1
  let main_v46 : IVec S8192 1 := (fun x v => Host.reduce IntOp.ori x v reducesTo_S8192x8192_S8192_d1 h_S_) main_v45 main_c_17
  let main_c_18 : IVec S_ 1 := constantI S_ 1 1#1
  let main_v47 : IVec S_ 1 := (fun x v => Host.reduce IntOp.andi x v reducesTo_S8192_S_d0 h_S_) main_v46 main_c_18
  let main_v48 : IVec S_ 1 := andi main_v43 main_v47
  main_v48

def fn_part1 {F : FTy → Type} [FloatOps F] (main_arg1 : IVec S8192x8192 32) (main_arg5 : FVec F S64 .f32) (main_arg6 : FVec F S128x64 .f32) (main_arg7 : FVec F S64 .f32) (main_arg8 : FVec F S64x2 .f32) (main_arg9 : FVec F S2 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg8 main_arg9 main_v33

def fn {F : FTy → Type} [FloatOps F] (main_arg0 : FVec F S8192x128 .f32) (main_arg1 : IVec S8192x8192 32) (main_arg2 : FVec F S128x64 .f32) (main_arg3 : FVec F S64 .f32) (main_arg4 : FVec F S128x64 .f32) (main_arg5 : FVec F S64 .f32) (main_arg6 : FVec F S128x64 .f32) (main_arg7 : FVec F S64 .f32) (main_arg8 : FVec F S64x2 .f32) (main_arg9 : FVec F S2 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S128x64 .f32 := Host.absf main_arg4
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg1 main_arg5 main_arg6 main_arg7 main_arg8 main_arg9 main_v13 main_v16
-- ==== Kernel.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S8192x64 : Shape := ⟨2, ![8192, 64]⟩
abbrev S1x64 : Shape := ⟨2, ![1, 64]⟩
abbrev S1024x64 : Shape := ⟨2, ![1024, 64]⟩
abbrev S1024x1024 : Shape := ⟨2, ![1024, 1024]⟩
abbrev S1024x1 : Shape := ⟨2, ![1024, 1]⟩
abbrev S1024 : Shape := ⟨1, ![1024]⟩
abbrev S_ : Shape := ⟨0, ![]⟩
abbrev S8192x2 : Shape := ⟨2, ![8192, 2]⟩
abbrev S1x2 : Shape := ⟨2, ![1, 2]⟩

abbrev nBuf : Space → Nat
  | .hbm => 38
  | .vmem => 13
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S8192x64, .bf16⟩
  | .hbm, ⟨15, _⟩ => ⟨S8192x64, .f32⟩
  | .hbm, ⟨16, _⟩ => ⟨S1x64, .f32⟩
  | .hbm, ⟨17, _⟩ => ⟨S8192x64, .f32⟩
  | .hbm, ⟨18, _⟩ => ⟨S8192x64, .f32⟩
  | .hbm, ⟨19, _⟩ => ⟨S8192x64, .bf16⟩
  | .hbm, ⟨20, _⟩ => ⟨S8192x64, .f32⟩
  | .hbm, ⟨21, _⟩ => ⟨S1x64, .f32⟩
  | .hbm, ⟨22, _⟩ => ⟨S8192x64, .f32⟩
  | .hbm, ⟨23, _⟩ => ⟨S8192x64, .f32⟩
  | .hbm, ⟨24, _⟩ => ⟨S8192x64, .bf16⟩
  | .hbm, ⟨25, _⟩ => ⟨S8192x64, .f32⟩
  | .hbm, ⟨26, _⟩ => ⟨S_, .f32⟩
  | .hbm, ⟨27, _⟩ => ⟨S8192x64, .f32⟩
  | .hbm, ⟨28, _⟩ => ⟨S8192x64, .f32⟩
  | .hbm, ⟨29, _⟩ => ⟨S8192x2, .f32⟩
  | .hbm, ⟨30, _⟩ => ⟨S1x2, .f32⟩
  | .hbm, ⟨31, _⟩ => ⟨S8192x2, .f32⟩
  | .hbm, ⟨32, _⟩ => ⟨S8192x2, .f32⟩
  | .hbm, ⟨33, _⟩ => ⟨S_, .f32⟩
  | .hbm, ⟨34, _⟩ => ⟨S2, .f32⟩
  | .hbm, ⟨35, _⟩ => ⟨S_, .f32⟩
  | .hbm, ⟨36, _⟩ => ⟨S2, .f32⟩
  | .hbm, ⟨37, _⟩ => ⟨S2, .f32⟩
  | .local _ .vmem, ⟨0, _⟩ => ⟨S1024x64, .bf16⟩
  | .local _ .vmem, ⟨1, _⟩ => ⟨S1024x64, .bf16⟩
  | .local _ .vmem, ⟨2, _⟩ => ⟨S1024x64, .bf16⟩
  | .local _ .vmem, ⟨3, _⟩ => ⟨S1024x64, .bf16⟩
  | .local _ .vmem, ⟨4, _⟩ => ⟨S1024x64, .bf16⟩
  | .local _ .vmem, ⟨5, _⟩ => ⟨S1024x64, .bf16⟩
  | .local _ .vmem, ⟨6, _⟩ => ⟨S1024x1024, .i32⟩
  | .local _ .vmem, ⟨7, _⟩ => ⟨S1024x1024, .i32⟩
  | .local _ .vmem, ⟨8, _⟩ => ⟨S1024x64, .f32⟩
  | .local _ .vmem, ⟨9, _⟩ => ⟨S1024x64, .f32⟩
  | .local _ .vmem, ⟨10, _⟩ => ⟨S1024x1, .f32⟩
  | .local _ .vmem, ⟨11, _⟩ => ⟨S1024x1, .f32⟩
  | .local _ .vmem, ⟨12, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call0_cst : Ref sig .tc := ⟨.hbm, 26, rfl⟩
abbrev main_call0_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_v23 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v47 : BitVec 1 := Scalar.cmpi .eq arg1 c7_i32
  let v48 : BitVec 32 := Scalar.extui v47
  let c0_i32_28 : BitVec 32 := 0#32
  let v49 : BitVec 1 := Scalar.cmpi .ne v48 c0_i32_28
  v49

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bitsLt_bf16_f32 : FTy.bits .bf16 < FTy.bits .f32
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  broadcasts_S1024x1_S1024x1024 : S1024x1.Broadcasts S1024x1024
  broadcasts_S1024x1_S1024x64 : S1024x1.Broadcasts S1024x64
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S2_d0 : S8192x2.ReducesTo [0] S2
  h_S_ : 0 < S_.numel
  bcast_S_S2 : S_.BroadcastsInDim S2 (![] : Fin 0 → Fin S2.rank)
  dot_S8192x128_S128x64_S8192x64_1_0_0_1_n_n_wf : DotDims.WF S8192x128 S128x64 S8192x64 [1] [0] [0] [1] [] []
  dot_S1024x64_S1024x64_S1024x1024_1_1_0_0_n_n_wf : DotDims.WF S1024x64 S1024x64 S1024x1024 [1] [1] [0] [0] [] []
  dot_S1024x1024_S1024x64_S1024x64_1_0_0_1_n_n_wf : DotDims.WF S1024x1024 S1024x64 S1024x64 [1] [0] [0] [1] [] []
  dot_S8192x64_S64x2_S8192x2_1_0_0_1_n_n_wf : DotDims.WF S8192x64 S64x2 S8192x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x64.size a ≤ S8192x64.size a
  hwx0_1 : ∀ i : grid0.Coords, EltTy.bits .bf16 = 32 ∨ (Rect.block (s := S8192x64) S1024x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S8192x64.size a
  hwx0_2 : ∀ i : grid0.Coords, EltTy.bits .bf16 = 32 ∨ (Rect.block (s := S8192x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S8192x8192.size a
  hwx0_3 : ∀ i : grid0.Coords, EltTy.bits .i32 = 32 ∨ (Rect.block (s := S8192x8192) S1024x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S8192x64.size a
  hwx0_4 : ∀ i : grid0.Coords, EltTy.bits .f32 = 32 ∨ (Rect.block (s := S8192x64) S1024x64.size (cc0_transform_4 i) (hinb0_4 i)).WholeWords (EltTy.packing .f32)

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S1024x64_S1024x64_S1024x1024_1_1_0_0_n_n : DotDims S1024x64 S1024x64 S1024x1024 where
  lhsContracting := [1]
  rhsContracting := [1]
  lhsNonContracting := [0]
  rhsNonContracting := [0]
  lhsBatch := []
  rhsBatch := []
  wf := dot_S1024x64_S1024x64_S1024x1024_1_1_0_0_n_n_wf
def dot_S1024x1024_S1024x64_S1024x64_1_0_0_1_n_n : DotDims S1024x1024 S1024x64 S1024x64 where
  lhsContracting := [1]
  rhsContracting := [0]
  lhsNonContracting := [0]
  rhsNonContracting := [1]
  lhsBatch := []
  rhsBatch := []
  wf := dot_S1024x1024_S1024x64_S1024x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

abbrev win0_0 : Pipeline.Window sig grid0 :=
  Pipeline.Window.ofSpec (Memref.whole main_v4) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v9) S1024x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1024x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x64 : Shape := ⟨2, ![128, 64]⟩
abbrev S64 : Shape := ⟨1, ![64]⟩
abbrev S64x2 : Shape := ⟨2, ![64, 2]⟩
abbrev S2 : Shape := ⟨1, ![2]⟩
abbrev S8192x64 : Shape := ⟨2, ![8192, 64]⟩
abbrev S1x64 : Shape := ⟨2, ![1, 64]⟩
abbrev S64x8192 : Shape := ⟨2, ![64, 8192]⟩
abbrev S_ : Shape := ⟨0, ![]⟩
abbrev S8192 : Shape := ⟨1, ![8192]⟩
abbrev S8192x1 : Shape := ⟨2, ![8192, 1]⟩
abbrev S8192x2 : Shape := ⟨2, ![8192, 2]⟩
abbrev S1x2 : Shape := ⟨2, ![1, 2]⟩

abbrev nBuf : Space → Nat
  | .hbm => 61
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .i32⟩
  | .hbm, ⟨2, _⟩ => ⟨S128x64, .f32⟩
  | .hbm, ⟨3, _⟩ => ⟨S64, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S8192x64, .f32⟩
  | .hbm, ⟨11, _⟩ => ⟨S1x64, .f32⟩
  | .hbm, ⟨12, _⟩ => ⟨S8192x64, .f32⟩
  | .hbm, ⟨13, _⟩ => ⟨S8192x64, .f32⟩
  | .hbm, ⟨14, _⟩ => ⟨S8192x64, .f32⟩
  | .hbm, ⟨15, _⟩ => ⟨S1x64, .f32⟩
  | .hbm, ⟨16, _⟩ => ⟨S8192x64, .f32⟩
  | .hbm, ⟨17, _⟩ => ⟨S8192x64, .f32⟩
  | .hbm, ⟨18, _⟩ => ⟨S8192x64, .f32⟩
  | .hbm, ⟨19, _⟩ => ⟨S1x64, .f32⟩
  | .hbm, ⟨20, _⟩ => ⟨S8192x64, .f32⟩
  | .hbm, ⟨21, _⟩ => ⟨S8192x64, .f32⟩
  | .hbm, ⟨22, _⟩ => ⟨S64x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .i32⟩
  | .hbm, ⟨28, _⟩ => ⟨S8192x8192, .i32⟩
  | .hbm, ⟨29, _⟩ => ⟨S8192x8192, .i1⟩
  | .hbm, ⟨30, _⟩ => ⟨S_, .f32⟩
  | .hbm, ⟨31, _⟩ => ⟨S_, .f32⟩
  | .hbm, ⟨32, _⟩ => ⟨S8192x8192, .f32⟩
  | .hbm, ⟨33, _⟩ => ⟨S8192x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S8192x1, .f32⟩
  | .hbm, ⟨40, _⟩ => ⟨S8192x8192, .f32⟩
  | .hbm, ⟨41, _⟩ => ⟨S8192x8192, .f32⟩
  | .hbm, ⟨42, _⟩ => ⟨S8192x8192, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x8192, .f32⟩
  | .hbm, ⟨47, _⟩ => ⟨S8192x8192, .f32⟩
  | .hbm, ⟨48, _⟩ => ⟨S8192x64, .f32⟩
  | .hbm, ⟨49, _⟩ => ⟨S_, .f32⟩
  | .hbm, ⟨50, _⟩ => ⟨S8192x64, .f32⟩
  | .hbm, ⟨51, _⟩ => ⟨S8192x64, .f32⟩
  | .hbm, ⟨52, _⟩ => ⟨S8192x2, .f32⟩
  | .hbm, ⟨53, _⟩ => ⟨S1x2, .f32⟩
  | .hbm, ⟨54, _⟩ => ⟨S8192x2, .f32⟩
  | .hbm, ⟨55, _⟩ => ⟨S8192x2, .f32⟩
  | .hbm, ⟨56, _⟩ => ⟨S_, .f32⟩
  | .hbm, ⟨57, _⟩ => ⟨S2, .f32⟩
  | .hbm, ⟨58, _⟩ => ⟨S_, .f32⟩
  | .hbm, ⟨59, _⟩ => ⟨S2, .f32⟩
  | .hbm, ⟨60, _⟩ => ⟨S2, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_v16 : Ref sig .tc := ⟨.hbm, 28, rfl⟩
abbrev main_v17 : Ref sig .tc := ⟨.hbm, 29, rfl⟩
abbrev main_cst_0 : Ref sig .tc := ⟨.hbm, 30, rfl⟩
abbrev main_call0_v0 : Ref sig .tc := ⟨.hbm, 31, rfl⟩
abbrev main_call0_v1 : Ref sig .tc := ⟨.hbm, 32, rfl⟩
abbrev main_v18 : Ref sig .tc := ⟨.hbm, 33, rfl⟩
abbrev main_cst_1 : Ref sig .tc := ⟨.hbm, 34, rfl⟩
abbrev main_v19 : Ref sig .tc := ⟨.hbm, 35, rfl⟩
abbrev main_cst_2 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call1_cst : Ref sig .tc := ⟨.hbm, 49, rfl⟩
abbrev main_call1_v0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_cst_4 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  transposes_S8192x64_S64x8192_1_0 : S8192x64.Transposes [1, 0] S64x8192
  bcast_S_S8192x8192 : S_.BroadcastsInDim S8192x8192 (![] : Fin 0 → Fin S8192x8192.rank)
  reducesTo_S8192x8192_S8192_d1 : S8192x8192.ReducesTo [1] S8192
  h_S_ : 0 < S_.numel
  bcast_S_S8192 : S_.BroadcastsInDim S8192 (![] : Fin 0 → Fin S8192.rank)
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)
  bcast_S_S8192x64 : S_.BroadcastsInDim S8192x64 (![] : Fin 0 → Fin S8192x64.rank)
  bcast_S2_S1x2_1 : S2.BroadcastsInDim S1x2 (![1] : Fin 1 → Fin S1x2.rank)
  bcast_S1x2_S8192x2_0_1 : S1x2.BroadcastsInDim S8192x2 (![0, 1] : Fin 2 → Fin S8192x2.rank)
  reducesTo_S8192x2_S2_d0 : S8192x2.ReducesTo [0] S2
  bcast_S_S2 : S_.BroadcastsInDim S2 (![] : Fin 0 → Fin S2.rank)
  dot_S8192x128_S128x64_S8192x64_1_0_0_1_n_n_wf : DotDims.WF S8192x128 S128x64 S8192x64 [1] [0] [0] [1] [] []
  dot_S8192x64_S64x8192_S8192x8192_1_0_0_1_n_n_wf : DotDims.WF S8192x64 S64x8192 S8192x8192 [1] [0] [0] [1] [] []
  dot_S8192x8192_S8192x64_S8192x64_1_0_0_1_n_n_wf : DotDims.WF S8192x8192 S8192x64 S8192x64 [1] [0] [0] [1] [] []
  dot_S8192x64_S64x2_S8192x2_1_0_0_1_n_n_wf : DotDims.WF S8192x64 S64x2 S8192x2 [1] [0] [0] [1] [] []

variable [Facts₀]

def dot_S8192x128_S128x64_S8192x64_1_0_0_1_n_n : DotDims S8192x128 S128x64 S8192x64 where
  lhsContracting := [1]
  rhsContracting := [0]
  lhsNonContracting := [0]
  rhsNonContracting := [1]
  lhsBatch := []
  rhsBatch := []
  wf := dot_S8192x128_S128x64_S8192x64_1_0_0_1_n_n_wf
def dot_S8192x64_S64x8192_S8192x8192_1_0_0_1_n_n : DotDims S8192x64 S64x8192 S8192x8192 where
  lhsContracting := [1]
  rhsContracting := [0]
  lhsNonContracting := [0]
  rhsNonContracting := [1]
  lhsBatch := []
  rhsBatch := []
  wf := dot_S8192x64_S64x8192_S8192x8192_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x2_S8192x2_1_0_0_1_n_n : DotDims S8192x64 S64x2 S8192x2 where
  lhsContracting := [1]
  rhsContracting := [0]
  lhsNonContracting := [0]
  rhsNonContracting := [1]
  lhsBatch := []
  rhsBatch := []
  wf := dot_S8192x64_S64x2_S8192x2_1_0_0_1_n_n_wf

class Facts : Prop extends Facts₀ where

variable [Facts]
-- ==== Proof.Consts.lean ====
/-
  The float constants the two programs spell, as the extended reals their bit patterns denote: -∞ and +∞, the
  reference's divisor 8 and the kernel's factor 1/8.
-/
import Idealize.ShloMosaic.PureOps.Ideal

noncomputable section

namespace Cert.Consts

open Idealize.ShloMosaic

/-- The pattern of -∞ denotes the bottom of the extended reals. -/
theorem ofBits_neg_inf : Ideal.ofBits .f32 0xFF800000#32 = ⊥ := by
  simp [Ideal.ofBits, Ideal.ieee]

/-- The pattern of +∞ denotes the top. -/
theorem ofBits_pos_inf : Ideal.ofBits .f32 0x7F800000#32 = ⊤ := by
  simp [Ideal.ofBits, Ideal.ieee]

/-- `8.0` denotes the real 8. -/
theorem ofBits_8 : Ideal.ofBits .f32 0x41000000#32 = ((8 : ℝ) : EReal) := by
  simp [Ideal.ofBits, Ideal.ieee, -EReal.coe_mul]; norm_num

/-- `0.125` denotes the real 1/8. -/
theorem ofBits_eighth : Ideal.ofBits .f32 0x3E000000#32 = ((1 / 8 : ℝ) : EReal) := by
  simp [Ideal.ofBits, Ideal.ieee, -EReal.coe_mul]; norm_num

end Cert.Consts

end
-- ==== Proof.OnlineSoftmax.lean ====
/-
  A softmax-weighted sum accumulated block by block, on the extended reals.

  A row of scores `s` (each a real or `⊥`: a masked entry) is met one block at a time. The running maximum
  `m`, the running normaliser `l = ∑ exp (s - m)` and the running numerator `a = ∑ exp (s - m) · v` are
  rescaled by `exp (m - m')` whenever the maximum moves to `m'`. The law that makes this exact is
  `exp (m - m') · exp (x - m) = exp (x - m')` for `x ≤ m ≤ m' < ⊤`, which also holds at `⊥` because
  `exp ⊥ = 0` and `⊥ - ⊥ = ⊥`. All weights are reals in `[0, 1]`, so every sum is a real sum and the final
  quotient `a / l` is the usual `∑ (exp (s - M) / L) · v`, as soon as one score is not masked (`L ≥ 1`).
-/
import proofs.«152400_j87531433493194_2_alg».proof.Proof.Consts
import Idealize.ShloMosaic.PureOps.Ideal.Laws

noncomputable section

namespace Cert.OnlineSoftmax

open Idealize.ShloMosaic

/-- The exponential of an extended real is never negative. -/
theorem exp_nonneg (y : EReal) : 0 ≤ Ideal.exp y := by
  induction y using EReal.rec with
  | bot => simp
  | top => simp
  | coe a => simpa using (Real.exp_nonneg a)

/-- The weight of a score `x` against a maximum `m`, as a real number. -/
def wt (x m : EReal) : ℝ := (Ideal.exp (x - m)).toReal

theorem wt_nonneg (x m : EReal) : 0 ≤ wt x m := EReal.toReal_nonneg (exp_nonneg _)

/-- Below a maximum that is not `⊤` the weight is a real: `exp (x - m)` is its coercion. -/
theorem exp_sub_eq_wt {x m : EReal} (hx : x ≤ m) (hm : m ≠ ⊤) :
    Ideal.exp (x - m) = ((wt x m : ℝ) : EReal) := by
  unfold wt
  induction m using EReal.rec with
  | bot =>
    obtain rfl : x = ⊥ := le_bot_iff.1 hx
    simp [sub_eq_add_neg]
  | top => exact absurd rfl hm
  | coe b =>
    induction x using EReal.rec with
    | bot => simp [sub_eq_add_neg]
    | top => simp at hx
    | coe a => rw [← EReal.coe_sub, Ideal.exp_coe, EReal.toReal_coe]

/-- Moving the maximum from `m` to `m'` rescales every weight by the weight of `m` against `m'`. -/
theorem wt_mul {x m m' : EReal} (hx : x ≤ m) (hm : m ≤ m') (hm' : m' ≠ ⊤) : wt m m' * wt x m = wt x m' := by
  unfold wt
  induction m' using EReal.rec with
  | bot =>
    obtain rfl : m = ⊥ := le_bot_iff.1 hm
    obtain rfl : x = ⊥ := le_bot_iff.1 hx
    simp [sub_eq_add_neg]
  | top => exact absurd rfl hm'
  | coe c =>
    induction m using EReal.rec with
    | bot =>
      obtain rfl : x = ⊥ := le_bot_iff.1 hx
      simp [sub_eq_add_neg]
    | top => simp at hm
    | coe b =>
      induction x using EReal.rec with
      | bot => simp [sub_eq_add_neg]
      | top => simp at hx
      | coe a =>
        rw [← EReal.coe_sub, ← EReal.coe_sub, ← EReal.coe_sub]
        simp only [Ideal.exp_coe, EReal.toReal_coe]
        rw [← Real.exp_add]; congr 1; ring

/-- A real maximum weighs `1` against itself. -/
theorem wt_self (b : ℝ) : wt (b : EReal) (b : EReal) = 1 := by
  unfold wt; rw [← EReal.coe_sub, sub_self, Ideal.exp_coe, Real.exp_zero, EReal.toReal_coe]

/-- The coercion of a finite real sum. -/
theorem coe_sum {ι : Type} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

/-- A real score weighs positively against a real maximum. -/
theorem wt_pos (a b : ℝ) : 0 < wt (a : EReal) (b : EReal) := by
  unfold wt; rw [← EReal.coe_sub, Ideal.exp_coe, EReal.toReal_coe]; exact Real.exp_pos _

/-! ## The recursion over blocks -/

section Blocks

variable {K : ℕ} (s v : ℕ → Fin K → EReal)

/-- The maximum of block `b`'s scores (`⊥` for an empty or fully masked block). -/
def bmax (b : ℕ) : EReal := (Finset.univ : Finset (Fin K)).fold max ⊥ (s b)

/-- The running maximum after `n` blocks. -/
def M : ℕ → EReal
  | 0 => ⊥
  | n + 1 => max (M n) (bmax s n)

/-- The running normaliser after `n` blocks, rescaled at each step. -/
def L : ℕ → EReal
  | 0 => 0
  | n + 1 => Ideal.exp (M s n - M s (n + 1)) * L n + ∑ j, Ideal.exp (s n j - M s (n + 1))

/-- The running numerator after `n` blocks, rescaled at each step. -/
def A : ℕ → EReal
  | 0 => 0
  | n + 1 => Ideal.exp (M s n - M s (n + 1)) * A n + ∑ j, Ideal.exp (s n j - M s (n + 1)) * v n j

theorem le_bmax (b : ℕ) (j : Fin K) : s b j ≤ bmax s b :=
  (Finset.le_fold_max _).2 (Or.inr ⟨j, Finset.mem_univ _, le_rfl⟩)

theorem M_mono (n : ℕ) : M s n ≤ M s (n + 1) := le_max_left _ _

theorem le_M : ∀ (n b : ℕ), b < n → ∀ j, s b j ≤ M s n
  | 0, b, h, _ => absurd h (Nat.not_lt_zero _)
  | n + 1, b, h, j => by
    rcases Nat.lt_succ_iff_lt_or_eq.1 h with h' | rfl
    · exact (le_M n b h' j).trans (M_mono s n)
    · exact (le_bmax s b j).trans (le_max_right _ _)

/-- The running maximum is below every bound of the scores met so far. -/
theorem M_le (u : EReal) : ∀ n, (∀ b < n, ∀ j, s b j ≤ u) → M s n ≤ u
  | 0, _ => bot_le
  | n + 1, h => max_le (M_le u n fun b hb j => h b (Nat.lt_succ_of_lt hb) j)
      ((Finset.fold_max_le u).2 ⟨bot_le, fun j _ => h n (Nat.lt_succ_self n) j⟩)

variable (hs : ∀ b j, s b j ≠ ⊤)
include hs

theorem bmax_ne_top (b : ℕ) : bmax s b ≠ ⊤ := by
  apply ne_of_lt
  exact (Finset.fold_max_lt ⊤).2 ⟨bot_lt_top, fun j _ => lt_top_iff_ne_top.2 (hs b j)⟩

theorem M_ne_top : ∀ n, M s n ≠ ⊤
  | 0 => by simp [M]
  | n + 1 => by
    show max (M s n) (bmax s n) ≠ ⊤
    rcases max_choice (M s n) (bmax s n) with h | h <;> rw [h]
    · exact M_ne_top n
    · exact bmax_ne_top s hs n

/-- The normaliser after `n` blocks is the real sum of the weights against the maximum so far. -/
theorem L_eq : ∀ n, L s n = ((∑ b ∈ Finset.range n, ∑ j, wt (s b j) (M s n) : ℝ) : EReal)
  | 0 => by simp [L]
  | n + 1 => by
    have e : ∑ j, Ideal.exp (s n j - M s (n + 1)) = ((∑ j, wt (s n j) (M s (n + 1)) : ℝ) : EReal) := by
      rw [coe_sum]
      exact Finset.sum_congr rfl fun j _ =>
        exp_sub_eq_wt (le_M s (n + 1) n (Nat.lt_succ_self n) j) (M_ne_top s hs (n + 1))
    rw [L, exp_sub_eq_wt (M_mono s n) (M_ne_top s hs (n + 1)), L_eq n, e, ← EReal.coe_mul, ← EReal.coe_add]
    congr 1
    rw [Finset.sum_range_succ, Finset.mul_sum]
    congr 1
    refine Finset.sum_congr rfl fun b hb => ?_
    rw [Finset.mul_sum]
    exact Finset.sum_congr rfl fun j _ =>
      wt_mul (le_M s n b (Finset.mem_range.1 hb) j) (M_mono s n) (M_ne_top s hs (n + 1))

variable (vr : ℕ → Fin K → ℝ) (hv : ∀ b j, v b j = ((vr b j : ℝ) : EReal))
include hv

/-- The numerator after `n` blocks is the real weighted sum of the values. -/
theorem A_eq : ∀ n, A s v n = ((∑ b ∈ Finset.range n, ∑ j, wt (s b j) (M s n) * vr b j : ℝ) : EReal)
  | 0 => by simp [A]
  | n + 1 => by
    have e : ∑ j, Ideal.exp (s n j - M s (n + 1)) * v n j
        = ((∑ j, wt (s n j) (M s (n + 1)) * vr n j : ℝ) : EReal) := by
      rw [coe_sum]
      exact Finset.sum_congr rfl fun j _ => by
        rw [exp_sub_eq_wt (le_M s (n + 1) n (Nat.lt_succ_self n) j) (M_ne_top s hs (n + 1)), hv n j, ← EReal.coe_mul]
    rw [A, exp_sub_eq_wt (M_mono s n) (M_ne_top s hs (n + 1)), A_eq n, e, ← EReal.coe_mul, ← EReal.coe_add]
    congr 1
    rw [Finset.sum_range_succ, Finset.mul_sum]
    congr 1
    refine Finset.sum_congr rfl fun b hb => ?_
    rw [Finset.mul_sum]
    refine Finset.sum_congr rfl fun j _ => ?_
    rw [← mul_assoc, wt_mul (le_M s n b (Finset.mem_range.1 hb) j) (M_mono s n) (M_ne_top s hs (n + 1))]

/-- THE QUOTIENT. Once some score among the first `N` blocks is not masked, the numerator over the normaliser is the
    softmax-weighted sum of the values, each weight divided by the normaliser first; and the normaliser is the plain
    sum of the exponentials against the final maximum. -/
theorem quotient_eq (N : ℕ) (hne : ∃ b < N, ∃ j, s b j ≠ ⊥) :
    Ideal.div (A s v N) (L s N)
        = ∑ b ∈ Finset.range N, ∑ j, Ideal.div (Ideal.exp (s b j - M s N)) (L s N) * v b j
      ∧ L s N = ∑ b ∈ Finset.range N, ∑ j, Ideal.exp (s b j - M s N) := by
  obtain ⟨b0, hb0, j0, hj0⟩ := hne
  have hMtop := M_ne_top s hs N
  have hMbot : M s N ≠ ⊥ := fun h => hj0 (le_bot_iff.1 (h ▸ le_M s N b0 hb0 j0))
  -- the normaliser is a positive real
  have hpos : 0 < ∑ b ∈ Finset.range N, ∑ j, wt (s b j) (M s N) := by
    refine Finset.sum_pos' (fun b _ => Finset.sum_nonneg fun j _ => wt_nonneg _ _) ⟨b0, Finset.mem_range.2 hb0, ?_⟩
    refine Finset.sum_pos' (fun j _ => wt_nonneg _ _) ⟨j0, Finset.mem_univ _, ?_⟩
    lift M s N to ℝ using ⟨hMtop, hMbot⟩ with μ
    lift s b0 j0 to ℝ using ⟨hs b0 j0, hj0⟩ with σ
    exact wt_pos σ μ
  have hL := L_eq s hs N
  obtain ⟨ℓ, hℓ⟩ : ∃ ℓ : ℝ, ℓ = ∑ b ∈ Finset.range N, ∑ j, wt (s b j) (M s N) := ⟨_, rfl⟩
  rw [← hℓ] at hL hpos
  have hexp : ∀ b ∈ Finset.range N, ∀ j, Ideal.exp (s b j - M s N) = ((wt (s b j) (M s N) : ℝ) : EReal) :=
    fun b hb j => exp_sub_eq_wt (le_M s N b (Finset.mem_range.1 hb) j) hMtop
  refine ⟨?_, ?_⟩
  · have e3 : ∑ b ∈ Finset.range N, ∑ j, Ideal.div (Ideal.exp (s b j - M s N)) (ℓ : EReal) * v b j
        = ((∑ b ∈ Finset.range N, ∑ j, wt (s b j) (M s N) * (1 / ℓ) * vr b j : ℝ) : EReal) := by
      rw [coe_sum]
      refine Finset.sum_congr rfl fun b hb => ?_
      rw [coe_sum]
      exact Finset.sum_congr rfl fun j _ => by
        rw [hexp b hb j, Ideal.div_coe hpos.ne', hv b j, ← EReal.coe_mul, ← EReal.coe_mul]
    rw [A_eq s v hs vr hv N, hL, Ideal.div_coe hpos.ne', ← EReal.coe_mul, e3]
    congr 1
    rw [Finset.sum_mul]
    refine Finset.sum_congr rfl fun b _ => ?_
    rw [Finset.sum_mul]
    exact Finset.sum_congr rfl fun j _ => by ring
  · rw [hL, hℓ, coe_sum]
    refine Finset.sum_congr rfl fun b hb => ?_
    rw [coe_sum]
    exact Finset.sum_congr rfl fun j _ => (hexp b hb j).symm

end Blocks

end Cert.OnlineSoftmax

end
-- ==== Proof.Pieces.lean ====
/-
  What one run of the attention body leaves in the three buffers it carries from one key block to the next —
  the running row maximum, the running normaliser and the running numerator — and, at the last key block, in
  the output block: each is the body's arithmetic applied to the query, key, value and mask blocks and to what
  the buffers held before (at the first key block: -∞, 0 and 0, which the body itself stores first).
-/
import proofs.«152400_j87531433493194_2_alg».proof.Proof.Gen.KernelIdeal.Frame
import proofs.«152400_j87531433493194_2_alg».proof.Proof.Gen.ReferenceIdeal.Read
import proofs.«152400_j87531433493194_2_alg».proof.Proof.OnlineSoftmax
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F] [Named F]

theorem hz : (![0, 0] : Fin 2 → Nat) = fun _ => 0 := funext fun a => by fin_cases a <;> rfl

/-- The running maximum after a block: the old maximum against the block's row maxima. -/
def mNew (x0 x1 : Vec F S1024x64 .bf16) (x3 : Vec F S1024x1024 .i32) (xs0 : Vec F S1024x1 .f32) : Vec F S1024x1 .f32 :=
  k0_pay2 (k0_pay8 x0 x1 x3 xs0)

/-- The running normaliser after a block. -/
def lNew (x0 x1 : Vec F S1024x64 .bf16) (x3 : Vec F S1024x1024 .i32) (xs0 xs1 : Vec F S1024x1 .f32) : Vec F S1024x1 .f32 :=
  k0_pay11 x0 x1 x3 xs0 xs0 xs1

/-- The running numerator after a block. -/
def accNew (x0 x1 x2 : Vec F S1024x64 .bf16) (x3 : Vec F S1024x1024 .i32) (xs0 : Vec F S1024x1 .f32) (xs2 : Vec F S1024x64 .f32) :
    Vec F S1024x64 .f32 :=
  k0_pay1 (k0_pay9 x0 x1 x3 xs0 xs0) (k0_pay10 x0 x1 x3 xs0) x2 xs2

theorem sout_A_0 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i) (x0 : Vec F S1024x64 .bf16) (x1 : Vec F S1024x64 .bf16) (x2 : Vec F S1024x64 .bf16) (x3 : Vec F S1024x1024 .i32)  :
    sout0_A_0 c i arg2 harg2 arg3 harg3 arg4 harg4 arg5 harg5 arg6 harg6 arg7 harg7 arg8 harg8 arg9 harg9 hc0 hc1 x0 x1 x2 x3 = mNew x0 x1 x3 k0_pay4 := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_A_1 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i) (x0 : Vec F S1024x64 .bf16) (x1 : Vec F S1024x64 .bf16) (x2 : Vec F S1024x64 .bf16) (x3 : Vec F S1024x1024 .i32)  :
    sout0_A_1 c i arg2 harg2 arg3 harg3 arg4 harg4 arg5 harg5 arg6 harg6 arg7 harg7 arg8 harg8 arg9 harg9 hc0 hc1 x0 x1 x2 x3 = lNew x0 x1 x3 k0_pay4 k0_pay5 := by
  unfold sout0_A_1
  rw [View.read_writes_eq_canon _ _ _ (scover0_A_1 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x1) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_A_2 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : cond0_0 i) (hc1 : ¬cond0_1 i) (x0 : Vec F S1024x64 .bf16) (x1 : Vec F S1024x64 .bf16) (x2 : Vec F S1024x64 .bf16) (x3 : Vec F S1024x1024 .i32)  :
    sout0_A_2 c i arg2 harg2 arg3 harg3 arg4 harg4 arg5 harg5 arg6 harg6 arg7 harg7 arg8 harg8 arg9 harg9 hc0 hc1 x0 x1 x2 x3 = accNew x0 x1 x2 x3 k0_pay4 k0_pay6 := by
  unfold sout0_A_2
  rw [View.read_writes_eq_canon _ _ _ (scover0_A_2 c i arg2 harg2 arg3 harg3 arg4 harg4 arg5 harg5 arg6 harg6 arg7 harg7 arg8 harg8 arg9 harg9 hc0 hc1 x0 x1 x2 x3)]
  unfold kernelRun0_A
  dsimp only
  sl_unfold_words
  rw [View.canon_cons_unit_zero (S := S1024x64) hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_B_0 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_B_0 c i arg2 harg2 arg3 harg3 arg4 harg4 arg5 harg5 arg6 harg6 arg7 harg7 arg8 harg8 arg9 harg9 hc0 hc1 x0 x1 x2 x3 xs0 xs1 xs2 = mNew x0 x1 x3 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_B_1 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_B_1 c i arg2 harg2 arg3 harg3 arg4 harg4 arg5 harg5 arg6 harg6 arg7 harg7 arg8 harg8 arg9 harg9 hc0 hc1 x0 x1 x2 x3 xs0 xs1 xs2 = lNew x0 x1 x3 xs0 xs1 := by
  unfold sout0_B_1
  rw [View.read_writes_eq_canon _ _ _ (scover0_B_1 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_B_2 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : ¬cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_B_2 c i arg2 harg2 arg3 harg3 arg4 harg4 arg5 harg5 arg6 harg6 arg7 harg7 arg8 harg8 arg9 harg9 hc0 hc1 x0 x1 x2 x3 xs0 xs1 xs2 = accNew x0 x1 x2 x3 xs0 xs2 := by
  unfold sout0_B_2
  rw [View.read_writes_eq_canon _ _ _ (scover0_B_2 c i arg2 harg2 arg3 harg3 arg4 harg4 arg5 harg5 arg6 harg6 arg7 harg7 arg8 harg8 arg9 harg9 hc0 hc1 x0 x1 x2 x3 xs0 xs1 xs2)]
  unfold kernelRun0_B
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_C_0 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_C_0 c i arg2 harg2 arg3 harg3 arg4 harg4 arg5 harg5 arg6 harg6 arg7 harg7 arg8 harg8 arg9 harg9 hc0 hc1 x0 x1 x2 x3 xs0 xs1 xs2 = mNew x0 x1 x3 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_C_1 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_C_1 c i arg2 harg2 arg3 harg3 arg4 harg4 arg5 harg5 arg6 harg6 arg7 harg7 arg8 harg8 arg9 harg9 hc0 hc1 x0 x1 x2 x3 xs0 xs1 xs2 = lNew x0 x1 x3 xs0 xs1 := by
  unfold sout0_C_1
  rw [View.read_writes_eq_canon _ _ _ (scover0_C_1 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem sout_C_2 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    sout0_C_2 c i arg2 harg2 arg3 harg3 arg4 harg4 arg5 harg5 arg6 harg6 arg7 harg7 arg8 harg8 arg9 harg9 hc0 hc1 x0 x1 x2 x3 xs0 xs1 xs2 = accNew x0 x1 x2 x3 xs0 xs2 := by
  unfold sout0_C_2
  rw [View.read_writes_eq_canon _ _ _ (scover0_C_2 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

theorem out_C_4 (c : Dev nD) (i : grid0.Coords) (arg2 : Memref sig .tc .vmem S1024x64 .bf16) (harg2 : arg2.IsWhole) (arg3 : Memref sig .tc .vmem S1024x64 .bf16) (harg3 : arg3.IsWhole) (arg4 : Memref sig .tc .vmem S1024x64 .bf16) (harg4 : arg4.IsWhole) (arg5 : Memref sig .tc .vmem S1024x1024 .i32) (harg5 : arg5.IsWhole) (arg6 : Memref sig .tc .vmem S1024x64 .f32) (harg6 : arg6.IsWhole) (arg7 : Memref sig .tc .vmem S1024x1 .f32) (harg7 : arg7.IsWhole) (arg8 : Memref sig .tc .vmem S1024x1 .f32) (harg8 : arg8.IsWhole) (arg9 : Memref sig .tc .vmem S1024x64 .f32) (harg9 : arg9.IsWhole) (hc0 : ¬cond0_0 i) (hc1 : cond0_1 i) (x0 : Vec F S1024x64 .bf16) (x1 : Vec F S1024x64 .bf16) (x2 : Vec F S1024x64 .bf16) (x3 : Vec F S1024x1024 .i32) (xs0 : Vec F S1024x1 .f32) (xs1 : Vec F S1024x1 .f32) (xs2 : Vec F S1024x64 .f32) :
    out0_C_4 c i arg2 harg2 arg3 harg3 arg4 harg4 arg5 harg5 arg6 harg6 arg7 harg7 arg8 harg8 arg9 harg9 hc0 hc1 x0 x1 x2 x3 xs0 xs1 xs2 = k0_pay3 (accNew x0 x1 x2 x3 xs0 xs2) (lNew x0 x1 x3 xs0 xs1) := by
  unfold out0_C_4
  rw [View.read_writes_eq_canon _ _ _ (cover0_C_4 c i arg2 harg2 arg3 harg3 arg4 harg4 arg5 harg5 arg6 harg6 arg7 harg7 arg8 harg8 arg9 harg9 hc0 hc1 x0 x1 x2 x3 xs0 xs1 xs2)]
  unfold kernelRun0_C
  dsimp only
  sl_unfold_words
  rw [View.canon_unit_zero hz]
  simp only [View.readCov_unit_zero (S := S1024x1) _ hz, View.readCov_unit_zero (S := S1024x64) _ hz, View.readAt_eq_ld, harg2.read_unread, harg3.read_unread, harg4.read_unread, harg5.read_unread, harg7.read_unread, harg8.read_unread, harg9.read_unread, View.ld_unit_zero (S := S1024x64) hz, View.ld_unit_zero (S := S1024x1) hz, View.ld_unit_zero (S := S1024x1024) hz]
  rfl

end Cert.KernelIdeal.Pieces
end
-- ==== Proof.StepAt.lean ====
/-
  One key block's step of the attention body, read entry by entry on the extended reals: the masked scaled scores of
  a query row against the block's keys, the new row maximum, and the rescaled normaliser and numerator.
-/
import proofs.«152400_j87531433493194_2_alg».proof.Proof.Pieces
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open Idealize.ShloMosaic Idealize.ShloMosaic.TcCoe Idealize.SL.Sem

namespace Cert.KernelIdeal.StepAt

open Cert.KernelIdeal Cert.KernelIdeal.Gen Cert.KernelIdeal.Pieces ValueIdx

/-- The bit pattern of -∞ is the bottom of the extended reals. -/
theorem ofBits_neg_inf : Ideal.ofBits .f32 0xFF800000#32 = ⊥ := Cert.Consts.ofBits_neg_inf

/-- The mask fill the kernel names is -∞. -/
theorem neg_big : Named.named (F := Ideal) κ "neg_big" (φ := .f32) 0xFF333332#32 = ⊥ :=
  IdealRules.named_const.ideal_named_scalar _ _ _ _ rfl

theorem qk_lhs0 (i : S1024x1024.Idx) (q : dot_S1024x64_S1024x64_S1024x1024_1_1_0_0_n_n.contr.Idx) : (dot_S1024x64_S1024x64_S1024x1024_1_1_0_0_n_n.lhsIdx i q 0).val = (i 0).val := by
  unfold DotDims.lhsIdx
  rw [dif_neg (show ¬(0 : Fin S1024x64.rank) ∈ dot_S1024x64_S1024x64_S1024x1024_1_1_0_0_n_n.lhsBatch by decide), dif_pos (show (0 : Fin S1024x64.rank) ∈ dot_S1024x64_S1024x64_S1024x1024_1_1_0_0_n_n.lhsNonContracting by decide)]
  rfl
theorem qk_lhs1 (i : S1024x1024.Idx) (q : dot_S1024x64_S1024x64_S1024x1024_1_1_0_0_n_n.contr.Idx) : (dot_S1024x64_S1024x64_S1024x1024_1_1_0_0_n_n.lhsIdx i q 1).val = (q ⟨0, by decide⟩).val :=
  dot_S1024x64_S1024x64_S1024x1024_1_1_0_0_n_n.lhsIdx_val_of_single rfl i q
theorem qk_rhs0 (i : S1024x1024.Idx) (q : dot_S1024x64_S1024x64_S1024x1024_1_1_0_0_n_n.contr.Idx) : (dot_S1024x64_S1024x64_S1024x1024_1_1_0_0_n_n.rhsIdx i q 0).val = (i 1).val := by
  unfold DotDims.rhsIdx
  rw [dif_neg (show ¬(0 : Fin S1024x64.rank) ∈ dot_S1024x64_S1024x64_S1024x1024_1_1_0_0_n_n.rhsBatch by decide), dif_pos (show (0 : Fin S1024x64.rank) ∈ dot_S1024x64_S1024x64_S1024x1024_1_1_0_0_n_n.rhsNonContracting by decide)]
  rfl
theorem qk_rhs1 (i : S1024x1024.Idx) (q : dot_S1024x64_S1024x64_S1024x1024_1_1_0_0_n_n.contr.Idx) : (dot_S1024x64_S1024x64_S1024x1024_1_1_0_0_n_n.rhsIdx i q 1).val = (q ⟨0, by decide⟩).val :=
  dot_S1024x64_S1024x64_S1024x1024_1_1_0_0_n_n.rhsIdx_val_of_single rfl i q

/-- Row `r` of a query block against row `j` of a key block: the contraction over the 64 features. -/
theorem qk_apply (x0 x1 : FVec Ideal S1024x64 .bf16) (r j : Fin 1024) :
    matmul (F := Ideal) (φ₁ := .bf16) (φ₂ := .bf16) dot_S1024x64_S1024x64_S1024x1024_1_1_0_0_n_n none x0 x1 (constant S1024x1024 .f32 0x00000000#32) (ix2 r j)
      = ∑ k : Fin 64, x0 (ix2 r k) * x1 (ix2 j k) := by
  refine (Ideal.matmul_constant_zero_apply dot_S1024x64_S1024x64_S1024x1024_1_1_0_0_n_n none x0 x1 (ix2 r j)).trans ?_
  rw [← Equiv.sum_comp (contrEquiv1 dot_S1024x64_S1024x64_S1024x1024_1_1_0_0_n_n 64 rfl rfl).symm]
  refine Finset.sum_congr rfl fun k _ => ?_
  have hk := contrEquiv1_symm_val dot_S1024x64_S1024x64_S1024x1024_1_1_0_0_n_n 64 rfl rfl k
  have el : dot_S1024x64_S1024x64_S1024x1024_1_1_0_0_n_n.lhsIdx (ix2 r j) ((contrEquiv1 dot_S1024x64_S1024x64_S1024x1024_1_1_0_0_n_n 64 rfl rfl).symm k) = ix2 r k := funext fun a => Fin.ext (by
    match a with
    | ⟨0, _⟩ => exact qk_lhs0 _ _
    | ⟨1, _⟩ => exact (qk_lhs1 _ _).trans hk)
  have er : dot_S1024x64_S1024x64_S1024x1024_1_1_0_0_n_n.rhsIdx (ix2 r j) ((contrEquiv1 dot_S1024x64_S1024x64_S1024x1024_1_1_0_0_n_n 64 rfl rfl).symm k) = ix2 j k := funext fun a => Fin.ext (by
    match a with
    | ⟨0, _⟩ => exact qk_rhs0 _ _
    | ⟨1, _⟩ => exact (qk_rhs1 _ _).trans hk)
  rw [el, er]

theorem pv_lhs0 (i : S1024x64.Idx) (q : dot_S1024x1024_S1024x64_S1024x64_1_0_0_1_n_n.contr.Idx) : (dot_S1024x1024_S1024x64_S1024x64_1_0_0_1_n_n.lhsIdx i q 0).val = (i 0).val := by
  unfold DotDims.lhsIdx
  rw [dif_neg (show ¬(0 : Fin S1024x1024.rank) ∈ dot_S1024x1024_S1024x64_S1024x64_1_0_0_1_n_n.lhsBatch by decide), dif_pos (show (0 : Fin S1024x1024.rank) ∈ dot_S1024x1024_S1024x64_S1024x64_1_0_0_1_n_n.lhsNonContracting by decide)]
  rfl
theorem pv_lhs1 (i : S1024x64.Idx) (q : dot_S1024x1024_S1024x64_S1024x64_1_0_0_1_n_n.contr.Idx) : (dot_S1024x1024_S1024x64_S1024x64_1_0_0_1_n_n.lhsIdx i q 1).val = (q ⟨0, by decide⟩).val :=
  dot_S1024x1024_S1024x64_S1024x64_1_0_0_1_n_n.lhsIdx_val_of_single rfl i q
theorem pv_rhs0 (i : S1024x64.Idx) (q : dot_S1024x1024_S1024x64_S1024x64_1_0_0_1_n_n.contr.Idx) : (dot_S1024x1024_S1024x64_S1024x64_1_0_0_1_n_n.rhsIdx i q 0).val = (q ⟨0, by decide⟩).val :=
  dot_S1024x1024_S1024x64_S1024x64_1_0_0_1_n_n.rhsIdx_val_of_single rfl i q
theorem pv_rhs1 (i : S1024x64.Idx) (q : dot_S1024x1024_S1024x64_S1024x64_1_0_0_1_n_n.contr.Idx) : (dot_S1024x1024_S1024x64_S1024x64_1_0_0_1_n_n.rhsIdx i q 1).val = (i 1).val := by
  unfold DotDims.rhsIdx
  rw [dif_neg (show ¬(1 : Fin S1024x64.rank) ∈ dot_S1024x1024_S1024x64_S1024x64_1_0_0_1_n_n.rhsBatch by decide), dif_pos (show (1 : Fin S1024x64.rank) ∈ dot_S1024x1024_S1024x64_S1024x64_1_0_0_1_n_n.rhsNonContracting by decide)]
  rfl

/-- Row `r` of a weight block against column `d` of a value block: the contraction over the block's 1024 keys. -/
theorem pv_apply (p : FVec Ideal S1024x1024 .bf16) (x2 : FVec Ideal S1024x64 .bf16) (r : Fin 1024) (d : Fin 64) :
    matmul (F := Ideal) (φ₁ := .bf16) (φ₂ := .bf16) dot_S1024x1024_S1024x64_S1024x64_1_0_0_1_n_n none p x2 (constant S1024x64 .f32 0x00000000#32) (ix2 r d)
      = ∑ j : Fin 1024, p (ix2 r j) * x2 (ix2 j d) := by
  refine (Ideal.matmul_constant_zero_apply dot_S1024x1024_S1024x64_S1024x64_1_0_0_1_n_n none p x2 (ix2 r d)).trans ?_
  rw [← Equiv.sum_comp (contrEquiv1 dot_S1024x1024_S1024x64_S1024x64_1_0_0_1_n_n 1024 rfl rfl).symm]
  refine Finset.sum_congr rfl fun k _ => ?_
  have hk := contrEquiv1_symm_val dot_S1024x1024_S1024x64_S1024x64_1_0_0_1_n_n 1024 rfl rfl k
  have el : dot_S1024x1024_S1024x64_S1024x64_1_0_0_1_n_n.lhsIdx (ix2 r d) ((contrEquiv1 dot_S1024x1024_S1024x64_S1024x64_1_0_0_1_n_n 1024 rfl rfl).symm k) = ix2 r k := funext fun a => Fin.ext (by
    match a with
    | ⟨0, _⟩ => exact pv_lhs0 _ _
    | ⟨1, _⟩ => exact (pv_lhs1 _ _).trans hk)
  have er : dot_S1024x1024_S1024x64_S1024x64_1_0_0_1_n_n.rhsIdx (ix2 r d) ((contrEquiv1 dot_S1024x1024_S1024x64_S1024x64_1_0_0_1_n_n 1024 rfl rfl).symm k) = ix2 k d := funext fun a => Fin.ext (by
    match a with
    | ⟨0, _⟩ => exact (pv_rhs0 _ _).trans hk
    | ⟨1, _⟩ => exact pv_rhs1 _ _)
  rw [el, er]

/-- The masked, scaled score of query row `r` against key row `j` of the block. -/
def score (x0 x1 : FVec Ideal S1024x64 .bf16) (x3 : IVec S1024x1024 32) (r j : Fin 1024) : EReal :=
  Scalar.select (IntOp.cmpi .sgt (x3 (ix2 r j)) 0#32)
    ((∑ k : Fin 64, x0 (ix2 r k) * x1 (ix2 j k)) * Ideal.ofBits .f32 0x3E000000#32) ⊥

theorem pay7_apply (x0 x1 : FVec Ideal S1024x64 .bf16) (x3 : IVec S1024x1024 32) (r j : Fin 1024) :
    k0_pay7 (F := Ideal) x0 x1 x3 (ix2 r j) = score x0 x1 x3 r j := by
  unfold k0_pay7 score
  rw [select_apply, mulf_apply, shapeCast_self, shapeCast_self, qk_apply]
  rw [broadcast_apply, broadcast_apply, neg_big]
  rfl

/-! ## Columns and rows -/

/-- A vector of 1024 row values viewed as a 1024 × 1 column reads row `r` at `(r, 0)`. -/
theorem column_apply {α : Type} (x : S1024.Idx → α) (r : Fin 1024) (z : Fin 1) :
    shapeCast S1024x1 x shapeCasts_S1024_S1024x1 (ix2 r z) = x (ix1 r) := by
  refine shapeCast_apply x shapeCasts_S1024_S1024x1 (ix2 r z) (ix1 r) ?_
  rw [Shape.rowMajor_val_one, Shape.rowMajor_val_two]
  have := z.isLt
  show r.val = r.val * 1 + z.val
  omega

/-- A 1024 × 1 column spread over 1024 columns reads row `r`'s entry everywhere in row `r`. -/
theorem spread1024_apply {α : Type} (x : S1024x1.Idx → α) (r j : Fin 1024) :
    broadcastTo S1024x1024 x broadcasts_S1024x1_S1024x1024 (ix2 r j) = x (ix2 r 0) := by
  refine broadcastTo_apply x broadcasts_S1024x1_S1024x1024 (ix2 r j) (ix2 r 0) fun a => ?_
  match a with
  | ⟨0, _⟩ => rfl
  | ⟨1, _⟩ => rfl

/-- A 1024 × 1 column spread over 64 columns likewise. -/
theorem spread64_apply {α : Type} (x : S1024x1.Idx → α) (r : Fin 1024) (d : Fin 64) :
    broadcastTo S1024x64 x broadcasts_S1024x1_S1024x64 (ix2 r d) = x (ix2 r 0) := by
  refine broadcastTo_apply x broadcasts_S1024x1_S1024x64 (ix2 r d) (ix2 r 0) fun a => ?_
  match a with
  | ⟨0, _⟩ => rfl
  | ⟨1, _⟩ => rfl

/-- Row `r` with column `k` put back on the reduced axis. -/
theorem lift_row (r : Fin 1024) (k : Fin 1024) : reduces_S1024x1024_S1024.lift (ix1 r) k = ix2 r k :=
  funext fun a => Fin.ext (by
    match a with
    | ⟨0, _⟩ => rfl
    | ⟨1, _⟩ => rfl)

/-- The maximum along a row of a 1024 × 1024 block. -/
theorem rowmax_apply (x : FVec Ideal S1024x1024 .f32) (hφ : FKind.Formats .f32)
    (hacc : (0xFF800000#32 : BitVec 32) = FKind.maximumf.neutral .f32 hφ) (r : Fin 1024) :
    multiReduction .maximumf [1] S1024 x 0xFF800000#32 reduces_S1024x1024_S1024 hφ hacc (ix1 r)
      = (Finset.univ : Finset (Fin 1024)).fold max ⊥ (fun j => x (ix2 r j)) := by
  refine (Ideal.multiReduction_maximumf_single x 0xFF800000#32 reduces_S1024x1024_S1024 hφ hacc (ix1 r)).trans ?_
  show (Finset.univ : Finset (Fin 1024)).fold max (Ideal.ofBits .f32 0xFF800000#32) _ = _
  rw [ofBits_neg_inf]
  congr 1
  exact funext fun k => congrArg x (lift_row r k)

/-- The sum along a row of a 1024 × 1024 block. -/
theorem rowsum_apply (x : FVec Ideal S1024x1024 .f32) (hφ : FKind.Formats .f32)
    (hacc : (0x00000000#32 : BitVec 32) = FKind.add.neutral .f32 hφ) (r : Fin 1024) :
    multiReduction .add [1] S1024 x 0x00000000#32 reduces_S1024x1024_S1024 hφ hacc (ix1 r)
      = ∑ j : Fin 1024, x (ix2 r j) := by
  refine (Ideal.multiReduction_add_single x 0x00000000#32 reduces_S1024x1024_S1024 hφ hacc (ix1 r)).trans ?_
  exact Finset.sum_congr rfl fun k _ => congrArg x (lift_row r k)

/-! ## The step, entry by entry -/

theorem pay8_apply (x0 x1 : FVec Ideal S1024x64 .bf16) (x3 : IVec S1024x1024 32) (xs0 : FVec Ideal S1024x1 .f32) (r : Fin 1024) :
    k0_pay8 (F := Ideal) x0 x1 x3 xs0 (ix2 r 0)
      = max (xs0 (ix2 r 0)) ((Finset.univ : Finset (Fin 1024)).fold max ⊥ (score x0 x1 x3 r)) := by
  unfold k0_pay8
  refine congrArg (max (xs0 (ix2 r 0))) ?_
  refine (column_apply _ r 0).trans ?_
  refine (rowmax_apply _ _ _ r).trans ?_
  exact congrArg (fun f => Finset.fold max ⊥ f Finset.univ) (funext fun j => pay7_apply x0 x1 x3 r j)

/-- The new row maximum: the old one against the block's masked scores. -/
theorem mNew_apply (x0 x1 : FVec Ideal S1024x64 .bf16) (x3 : IVec S1024x1024 32) (xs0 : FVec Ideal S1024x1 .f32) (r : Fin 1024) :
    mNew (F := Ideal) x0 x1 x3 xs0 (ix2 r 0)
      = max (xs0 (ix2 r 0)) ((Finset.univ : Finset (Fin 1024)).fold max ⊥ (score x0 x1 x3 r)) := by
  unfold mNew k0_pay2
  simp only [shapeCast_self]
  exact pay8_apply x0 x1 x3 xs0 r

theorem mNew_eq_pay8 (x0 x1 : FVec Ideal S1024x64 .bf16) (x3 : IVec S1024x1024 32) (xs0 : FVec Ideal S1024x1 .f32) :
    mNew (F := Ideal) x0 x1 x3 xs0 = k0_pay8 (F := Ideal) x0 x1 x3 xs0 := by
  unfold mNew k0_pay2
  simp only [shapeCast_self]

theorem pay10_apply (x0 x1 : FVec Ideal S1024x64 .bf16) (x3 : IVec S1024x1024 32) (xs0 : FVec Ideal S1024x1 .f32) (r j : Fin 1024) :
    k0_pay10 (F := Ideal) x0 x1 x3 xs0 (ix2 r j)
      = Ideal.exp (score x0 x1 x3 r j - mNew (F := Ideal) x0 x1 x3 xs0 (ix2 r 0)) := by
  rw [mNew_eq_pay8]
  unfold k0_pay10
  show Ideal.exp (k0_pay7 (F := Ideal) x0 x1 x3 (ix2 r j) - broadcastTo S1024x1024 (k0_pay8 (F := Ideal) x0 x1 x3 xs0) broadcasts_S1024x1_S1024x1024 (ix2 r j)) = _
  rw [pay7_apply, spread1024_apply]

theorem pay9_apply (x0 x1 : FVec Ideal S1024x64 .bf16) (x3 : IVec S1024x1024 32) (xs0 : FVec Ideal S1024x1 .f32) (r : Fin 1024) :
    k0_pay9 (F := Ideal) x0 x1 x3 xs0 xs0 (ix2 r 0)
      = Ideal.exp (xs0 (ix2 r 0) - mNew (F := Ideal) x0 x1 x3 xs0 (ix2 r 0)) := by
  rw [mNew_eq_pay8]
  rfl

/-- The new normaliser: the old one rescaled, plus the block's weights. -/
theorem lNew_apply (x0 x1 : FVec Ideal S1024x64 .bf16) (x3 : IVec S1024x1024 32) (xs0 xs1 : FVec Ideal S1024x1 .f32) (r : Fin 1024) :
    lNew (F := Ideal) x0 x1 x3 xs0 xs1 (ix2 r 0)
      = Ideal.exp (xs0 (ix2 r 0) - mNew (F := Ideal) x0 x1 x3 xs0 (ix2 r 0)) * xs1 (ix2 r 0)
        + ∑ j : Fin 1024, Ideal.exp (score x0 x1 x3 r j - mNew (F := Ideal) x0 x1 x3 xs0 (ix2 r 0)) := by
  unfold lNew k0_pay11
  simp only [shapeCast_self]
  show k0_pay9 (F := Ideal) x0 x1 x3 xs0 xs0 (ix2 r 0) * xs1 (ix2 r 0)
      + shapeCast S1024x1 (multiReduction .add [1] S1024 (k0_pay10 (F := Ideal) x0 x1 x3 xs0) 0x00000000#32 reduces_S1024x1024_S1024 (.inl rfl) rfl) shapeCasts_S1024_S1024x1 (ix2 r 0) = _
  rw [pay9_apply]
  congr 1
  refine (column_apply _ r 0).trans ?_
  refine (rowsum_apply _ _ _ r).trans ?_
  exact Finset.sum_congr rfl fun j _ => pay10_apply x0 x1 x3 xs0 r j

/-- The new numerator: the old one rescaled, plus the block's weighted values. -/
theorem accNew_apply (x0 x1 x2 : FVec Ideal S1024x64 .bf16) (x3 : IVec S1024x1024 32) (xs0 : FVec Ideal S1024x1 .f32)
    (xs2 : FVec Ideal S1024x64 .f32) (r : Fin 1024) (d : Fin 64) :
    accNew (F := Ideal) x0 x1 x2 x3 xs0 xs2 (ix2 r d)
      = Ideal.exp (xs0 (ix2 r 0) - mNew (F := Ideal) x0 x1 x3 xs0 (ix2 r 0)) * xs2 (ix2 r d)
        + ∑ j : Fin 1024, Ideal.exp (score x0 x1 x3 r j - mNew (F := Ideal) x0 x1 x3 xs0 (ix2 r 0)) * x2 (ix2 j d) := by
  unfold accNew k0_pay1
  simp only [shapeCast_self]
  show broadcastTo S1024x64 (k0_pay9 (F := Ideal) x0 x1 x3 xs0 xs0) broadcasts_S1024x1_S1024x64 (ix2 r d) * xs2 (ix2 r d)
      + matmul (F := Ideal) (φ₁ := .bf16) (φ₂ := .bf16) dot_S1024x1024_S1024x64_S1024x64_1_0_0_1_n_n none (truncf .bf16 (k0_pay10 (F := Ideal) x0 x1 x3 xs0) bitsLt_bf16_f32) x2 (constant S1024x64 .f32 0x00000000#32) (ix2 r d) = _
  rw [spread64_apply, pay9_apply, pv_apply]
  congr 1
  exact Finset.sum_congr rfl fun j _ => congrArg (· * x2 (ix2 j d)) (pay10_apply x0 x1 x3 xs0 r j)

/-- The output entry: the numerator over the row's normaliser. -/
theorem out_apply (a : FVec Ideal S1024x64 .f32) (l : FVec Ideal S1024x1 .f32) (r : Fin 1024) (d : Fin 64) :
    k0_pay3 (F := Ideal) a l (ix2 r d) = Ideal.div (a (ix2 r d)) (l (ix2 r 0)) := by
  unfold k0_pay3
  show Ideal.div (a (ix2 r d)) (broadcastTo S1024x64 l broadcasts_S1024x1_S1024x64 (ix2 r d)) = _
  rw [spread64_apply]

/-- What the body stores first at a row's first key block: -∞, 0 and 0. -/
theorem pay4_apply (i : S1024x1.Idx) : k0_pay4 (F := Ideal) i = ⊥ := by
  unfold k0_pay4
  simp only [shapeCast_self]
  exact ofBits_neg_inf
theorem pay5_apply (i : S1024x1.Idx) : k0_pay5 (F := Ideal) i = 0 := by
  unfold k0_pay5
  simp only [shapeCast_self]
  exact Ideal.ofBits_zero_f32
theorem pay6_apply (i : S1024x64.Idx) : k0_pay6 (F := Ideal) i = 0 := by
  unfold k0_pay6
  simp only [shapeCast_self]
  exact Ideal.ofBits_zero_f32

/-! ## The step is the recursion's step -/

section Step

open Cert.OnlineSoftmax

variable (x0 x1 x2 : FVec Ideal S1024x64 .bf16) (x3 : IVec S1024x1024 32) (xs0 xs1 : FVec Ideal S1024x1 .f32)
  (xs2 : FVec Ideal S1024x64 .f32) (r : Fin 1024) (d : Fin 64) (s v : ℕ → Fin 1024 → EReal) (k : ℕ)

theorem step_M (hs : score x0 x1 x3 r = s k) (h0 : xs0 (ix2 r 0) = M s k) :
    mNew (F := Ideal) x0 x1 x3 xs0 (ix2 r 0) = M s (k + 1) := by
  rw [mNew_apply, hs, h0]; rfl

theorem step_L (hs : score x0 x1 x3 r = s k) (h0 : xs0 (ix2 r 0) = M s k) (h1 : xs1 (ix2 r 0) = L s k) :
    lNew (F := Ideal) x0 x1 x3 xs0 xs1 (ix2 r 0) = L s (k + 1) := by
  rw [lNew_apply, step_M x0 x1 x3 xs0 r s k hs h0, hs, h0, h1]; rfl

theorem step_A (hs : score x0 x1 x3 r = s k) (hv : ∀ j, x2 (ix2 j d) = v k j) (h0 : xs0 (ix2 r 0) = M s k)
    (h2 : xs2 (ix2 r d) = A s v k) :
    accNew (F := Ideal) x0 x1 x2 x3 xs0 xs2 (ix2 r d) = A s v (k + 1) := by
  rw [accNew_apply, step_M x0 x1 x3 xs0 r s k hs h0, hs, h0, h2]
  show _ + _ = _ + _
  congr 1
  exact Finset.sum_congr rfl fun j _ => by rw [hv j]

end Step

end Cert.KernelIdeal.StepAt

end
-- ==== Proof.Carried.lean ====
/-
  The attention body's three carried buffers, point by point: after the body at a grid point they hold the step of
  the point's blocks applied to what the point before left — or, at a query block's first key block, to -∞, 0 and 0 —
  and at a query block's last key block the output block is the numerator over the normaliser.
-/
import proofs.«152400_j87531433493194_2_alg».proof.Proof.StepAt

set_option maxRecDepth 16384

noncomputable section

open Idealize.ShloMosaic Idealize.ShloMosaic.TcCoe Idealize.SL.Sem

namespace Cert.KernelIdeal.Carried

open Cert.KernelIdeal Cert.KernelIdeal.Gen Cert.KernelIdeal.Pieces

variable {F : FTy → Type} [FloatOps F] [Named F]
variable (m : (ℓ : Loc nD τ sig) → Buf (Elt F) ℓ) (c : Dev nD)

/-- The query, key, value and mask blocks the body meets at point `t`. -/
def qB (t : Fin cfg0.N) : Vec F S1024x64 .bf16 := iblk m c 0 t
def kB (t : Fin cfg0.N) : Vec F S1024x64 .bf16 := iblk m c 1 t
def vB (t : Fin cfg0.N) : Vec F S1024x64 .bf16 := iblk m c 2 t
def aB (t : Fin cfg0.N) : Vec F S1024x1024 .i32 := iblk m c 3 t

/-- What the three carried buffers hold when the body starts its arithmetic at point `t`. -/
def prevM (t : Fin cfg0.N) : Vec F S1024x1 .f32 :=
  if t.val % 8 = 0 then k0_pay4 else (outsAt0 m c (t.val - 1) (Nat.lt_of_le_of_lt (Nat.sub_le _ _) t.isLt)).2.1
def prevL (t : Fin cfg0.N) : Vec F S1024x1 .f32 :=
  if t.val % 8 = 0 then k0_pay5 else (outsAt0 m c (t.val - 1) (Nat.lt_of_le_of_lt (Nat.sub_le _ _) t.isLt)).2.2.1
def prevA (t : Fin cfg0.N) : Vec F S1024x64 .f32 :=
  if t.val % 8 = 0 then k0_pay6 else (outsAt0 m c (t.val - 1) (Nat.lt_of_le_of_lt (Nat.sub_le _ _) t.isLt)).2.2.2

/-- After the body at point `t` the carried buffers hold the step of the point's blocks. -/
theorem carried_eq (t : Fin cfg0.N) :
    (outsAt0 m c t.val t.isLt).2.1 = mNew (qB m c t) (kB m c t) (aB m c t) (prevM m c t)
    ∧ (outsAt0 m c t.val t.isLt).2.2.1 = lNew (qB m c t) (kB m c t) (aB m c t) (prevM m c t) (prevL m c t)
    ∧ (outsAt0 m c t.val t.isLt).2.2.2 = accNew (qB m c t) (kB m c t) (vB m c t) (aB m c t) (prevM m c t) (prevA m c t) := by
  have hN : cfg0.N = 64 := N_0
  by_cases h0 : t.val % 8 = 0
  · have h1 : ¬t.val % 8 = 7 := by omega
    rw [outsAt0_A m c t h0 h1]
    dsimp only
    unfold prevM prevL prevA
    rw [if_pos h0, if_pos h0, if_pos h0]
    exact ⟨sout_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (qB m c t) (kB m c t) (vB m c t) (aB m c t),
      sout_A_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (qB m c t) (kB m c t) (vB m c t) (aB m c t),
      sout_A_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) ((hcond0_0 t).mpr h0) (fun h => h1 ((hcond0_1 t).mp h)) (qB m c t) (kB m c t) (vB m c t) (aB m c t)⟩
  · by_cases h1 : t.val % 8 = 7
    · rw [outsAt0_C m c t h0 h1]
      dsimp only
      unfold prevM prevL prevA
      rw [if_neg h0, if_neg h0, if_neg h0]
      exact ⟨sout_C_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_C_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_C_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩
    · rw [outsAt0_B m c t h0 h1]
      dsimp only
      unfold prevM prevL prevA
      rw [if_neg h0, if_neg h0, if_neg h0]
      exact ⟨sout_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_B_1 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2,
        sout_B_2 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) (fun h => h1 ((hcond0_1 t).mp h)) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2⟩

/-- After the body at a query block's last key block the output block is the numerator over the normaliser. -/
theorem output_eq (t : Fin cfg0.N) (h1 : t.val % 8 = 7) :
    (outsAt0 m c t.val t.isLt).1
      = k0_pay3 (accNew (qB m c t) (kB m c t) (vB m c t) (aB m c t) (prevM m c t) (prevA m c t))
          (lNew (qB m c t) (kB m c t) (aB m c t) (prevM m c t) (prevL m c t)) := by
  have h0 : ¬t.val % 8 = 0 := by omega
  rw [outsAt0_C m c t h0 h1]
  dsimp only
  unfold prevM prevL prevA
  rw [if_neg h0, if_neg h0, if_neg h0]
  exact out_C_4 c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) scM0_2 (Memref.isWhole_whole _) (fun h => h0 ((hcond0_0 t).mp h)) ((hcond0_1 t).mpr h1) (qB m c t) (kB m c t) (vB m c t) (aB m c t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2

end Cert.KernelIdeal.Carried

end
-- ==== Proof.RefValue.lean ====
/-
  The reference, entry by entry: the masked scaled scores of a query row against every key, the row's maximum, the
  exponentials against it, their sum, and the softmax-weighted sum of the values.
-/
import proofs.«152400_j87531433493194_2_alg».proof.Proof.Carried
import Idealize.ShloMosaic.PureOps.Reduce

set_option maxRecDepth 16384

noncomputable section

open Idealize.ShloMosaic Idealize.ShloMosaic.TcCoe Idealize.SL.Sem

namespace Cert.ReferenceIdeal.RefValue

open Cert.ReferenceIdeal Cert.ReferenceIdeal.Gen Cert.ReferenceIdeal.Read ValueIdx

variable (x0 : FVec Ideal S8192x128 .f32) (x1 : IVec S8192x8192 32) (x2 : FVec Ideal S128x64 .f32)
  (x3 : FVec Ideal S64 .f32) (x4 : FVec Ideal S128x64 .f32) (x5 : FVec Ideal S64 .f32) (x6 : FVec Ideal S128x64 .f32)
  (x7 : FVec Ideal S64 .f32)

/-- The reference's masked, scaled score of query row `R` against key `J`. -/
def sR (R J : Fin 8192) : EReal := val_main_v18 (F := Ideal) x0 x1 x2 x3 x4 x5 (ix2 R J)

theorem sR_eq (R J : Fin 8192) :
    sR x0 x1 x2 x3 x4 x5 R J = Scalar.select (IntOp.cmpi .sgt (x1 (ix2 R J)) 0#32)
      (Ideal.div (∑ k : Fin 64, val_main_v3 (F := Ideal) x0 x2 x3 (ix2 R k) * val_main_v7 (F := Ideal) x0 x4 x5 (ix2 J k))
        (Ideal.ofBits .f32 0x41000000#32))
      (Ideal.ofBits .f32 0xFF800000#32) := by
  have e1 : ∀ k : Fin 64, lidx_main_v13 (ix2 R J) k = ix2 R k := fun k => funext fun a => Fin.ext (by
    match a with
    | ⟨0, _⟩ => rfl
    | ⟨1, _⟩ => rfl)
  have e2 : ∀ k : Fin 64, idx_main_v12 (ridx_main_v13 (ix2 R J) k) = ix2 J k := fun k => funext fun a => Fin.ext (by
    match a with
    | ⟨0, _⟩ => rfl
    | ⟨1, _⟩ => rfl)
  unfold sR
  rw [val_main_v18_apply, val_main_v17_apply, val_main_v16_apply, val_main_c_apply, val_main_v15_apply,
    val_main_v13_apply, val_main_v14_apply, val_main_cst_apply, val_main_call0_v1_apply, val_main_call0_v0_apply,
    val_main_cst_0_apply]
  have e3 : (∑ k : Fin 64, val_main_v3 (F := Ideal) x0 x2 x3 (lidx_main_v13 (ix2 R J) k) * val_main_v12 (F := Ideal) x0 x4 x5 (ridx_main_v13 (ix2 R J) k))
      = ∑ k : Fin 64, val_main_v3 (F := Ideal) x0 x2 x3 (ix2 R k) * val_main_v7 (F := Ideal) x0 x4 x5 (ix2 J k) :=
    Finset.sum_congr rfl fun k _ => by rw [val_main_v12_apply, e1, e2]
  rw [e3]
  rfl

/-- The reference's row maximum. -/
def mr (R : Fin 8192) : EReal := val_main_v21 (F := Ideal) x0 x1 x2 x3 x4 x5 (ix1 R)

/-- Column `J` put back into row `R`. -/
theorem lift_row (h : S8192x8192.Reduces [1] S8192) (R : Fin 8192) (J : Fin 8192) : h.lift (ix1 R) J = ix2 R J :=
  funext fun a => Fin.ext (by
    match a with
    | ⟨0, _⟩ => rfl
    | ⟨1, _⟩ => rfl)

theorem mr_eq (R : Fin 8192) :
    mr x0 x1 x2 x3 x4 x5 R = (Finset.univ : Finset (Fin 8192)).fold max ⊥ (sR x0 x1 x2 x3 x4 x5 R) := by
  unfold mr
  rw [val_main_v21_apply, val_main_v20_apply, val_main_cst_2_apply]
  unfold val_main_v19
  have hR : S8192x8192.Reduces [1] S8192 := by decide
  rw [Host.reduce_eq_fold_single FloatOps.maximumf _ _ reducesTo_S8192x8192_S8192_d1 hR h_S_]
  show max (Ideal.ofBits .f32 0xFF800000#32) ((Finset.univ : Finset (Fin 8192)).fold max (Ideal.ofBits .f32 0xFF800000#32) _) = _
  rw [Cert.Consts.ofBits_neg_inf, max_eq_right bot_le]
  exact congrArg (fun f => Finset.fold max ⊥ f Finset.univ) (funext fun J => congrArg (val_main_v18 (F := Ideal) x0 x1 x2 x3 x4 x5) (lift_row hR R J))

/-- The reference's normaliser of row `R`. -/
def lr (R : Fin 8192) : EReal := val_main_v26 (F := Ideal) x0 x1 x2 x3 x4 x5 (ix1 R)

theorem exp_eq (R J : Fin 8192) :
    val_main_v25 (F := Ideal) x0 x1 x2 x3 x4 x5 (ix2 R J) = Ideal.exp (sR x0 x1 x2 x3 x4 x5 R J - mr x0 x1 x2 x3 x4 x5 R) := by
  have e1 : idx_main_v22 (idx_main_v23 (ix2 R J)) = ix1 R := funext fun a => Fin.ext (by
    match a with
    | ⟨0, _⟩ => rfl)
  rw [val_main_v25_apply, val_main_v24_apply, val_main_v23_apply, val_main_v22_apply, e1]
  rfl

theorem lr_eq (R : Fin 8192) :
    lr x0 x1 x2 x3 x4 x5 R = ∑ J : Fin 8192, Ideal.exp (sR x0 x1 x2 x3 x4 x5 R J - mr x0 x1 x2 x3 x4 x5 R) := by
  have e1 : ∀ J : Fin 8192, idx_main_v26 (ix1 R) J = ix2 R J := fun J => funext fun a => Fin.ext (by
    match a with
    | ⟨0, _⟩ => rfl
    | ⟨1, _⟩ => rfl)
  unfold lr
  rw [val_main_v26_apply, val_main_cst_3_apply]
  show Ideal.ofBits .f32 0x00000000#32 + _ = _
  rw [Ideal.ofBits_zero_f32, zero_add]
  exact Finset.sum_congr rfl fun J _ => by rw [e1, exp_eq]

/-- THE REFERENCE'S ATTENTION OUTPUT at row `R`, feature `d`. -/
theorem href_eq (R : Fin 8192) (d : Fin 64) :
    val_main_v30 (F := Ideal) x0 x1 x2 x3 x4 x5 x6 x7 (ix2 R d)
      = ∑ J : Fin 8192, Ideal.div (Ideal.exp (sR x0 x1 x2 x3 x4 x5 R J - mr x0 x1 x2 x3 x4 x5 R)) (lr x0 x1 x2 x3 x4 x5 R)
          * val_main_v11 (F := Ideal) x0 x6 x7 (ix2 J d) := by
  have e1 : ∀ J : Fin 8192, lidx_main_v30 (ix2 R d) J = ix2 R J := fun J => funext fun a => Fin.ext (by
    match a with
    | ⟨0, _⟩ => rfl
    | ⟨1, _⟩ => rfl)
  have e2 : ∀ J : Fin 8192, ridx_main_v30 (ix2 R d) J = ix2 J d := fun J => funext fun a => Fin.ext (by
    match a with
    | ⟨0, _⟩ => rfl
    | ⟨1, _⟩ => rfl)
  have e3 : ∀ J : Fin 8192, idx_main_v27 (idx_main_v28 (ix2 R J)) = ix1 R := fun J => funext fun a => Fin.ext (by
    match a with
    | ⟨0, _⟩ => rfl)
  rw [val_main_v30_apply]
  refine Finset.sum_congr rfl fun J _ => ?_
  rw [e1, e2, val_main_v29_apply, exp_eq, val_main_v28_apply, val_main_v27_apply, e3]
  rfl

end Cert.ReferenceIdeal.RefValue

end
-- ==== Proof.PreDecode.lean ====
/-
  The precondition, read back: every float input is a real number, and every row of the adjacency mask has a
  positive entry.
-/
import proofs.«152400_j87531433493194_2_alg».proof.Proof.RefValue
import proofs.«152400_j87531433493194_2_alg».proof.Pre_finite_inputs
import Idealize.ShloMosaic.Lib.ReduceAll

set_option maxRecDepth 16384

noncomputable section

open Idealize.ShloMosaic

namespace Cert.PreDecode

open Cert.Pre_finite_inputs ValueIdx

instance : Subsingleton S_.Idx := ⟨fun a b => funext fun d => d.elim0⟩

/-- An extended real whose absolute value is below +∞ is a real number. -/
theorem real_of_abs_lt (x : EReal)
    (h : Ideal.cmp .olt (max x (-x)) (Ideal.ofBits .f32 0x7F800000#32) = 1#1) : ∃ r : ℝ, x = (r : EReal) := by
  rw [Cert.Consts.ofBits_pos_inf] at h
  induction x using EReal.rec with
  | bot => simp [Ideal.cmp] at h
  | top => simp [Ideal.cmp] at h
  | coe r => exact ⟨r, rfl⟩

/-- An `or` of two one-bit words is 1 iff one of them is. -/
theorem ori_eq_one {x y : BitVec 1} : IntOp.ori x y = 1#1 ↔ x = 1#1 ∨ y = 1#1 := by revert x y; decide

/-- A fold by `or` from 0 that came out 1 met a 1. -/
theorem fold_ori_eq_one {ι : Type} [DecidableEq ι] (f : ι → BitVec 1) (s : Finset ι) :
    s.fold IntOp.ori 0#1 f = 1#1 → ∃ k ∈ s, f k = 1#1 := by
  induction s using Finset.induction_on with
  | empty => intro h; rw [Finset.fold_empty] at h; exact absurd h (by decide)
  | insert a s ha ih =>
    intro h
    rw [Finset.fold_insert ha] at h
    rcases ori_eq_one.1 h with h | h
    · exact ⟨a, Finset.mem_insert_self a s, h⟩
    · obtain ⟨k, hk, e⟩ := ih h
      exact ⟨k, Finset.mem_insert_of_mem hk, e⟩

variable [Cert.Pre_finite_inputs.Facts]

/-- THE PRECONDITION READ BACK. -/
theorem decode (a0 : FVec Ideal S8192x128 .f32) (a1 : IVec S8192x8192 32) (a2 : FVec Ideal S128x64 .f32)
    (a3 : FVec Ideal S64 .f32) (a4 : FVec Ideal S128x64 .f32) (a5 : FVec Ideal S64 .f32) (a6 : FVec Ideal S128x64 .f32)
    (a7 : FVec Ideal S64 .f32) (a8 : FVec Ideal S64x2 .f32) (a9 : FVec Ideal S2 .f32)
    (h : fn (F := Ideal) a0 a1 a2 a3 a4 a5 a6 a7 a8 a9 = fun _ => 1#1) :
    (∀ i, ∃ r : ℝ, a0 i = (r : EReal)) ∧ (∀ i, ∃ r : ℝ, a2 i = (r : EReal)) ∧ (∀ i, ∃ r : ℝ, a3 i = (r : EReal))
    ∧ (∀ i, ∃ r : ℝ, a4 i = (r : EReal)) ∧ (∀ i, ∃ r : ℝ, a5 i = (r : EReal)) ∧ (∀ i, ∃ r : ℝ, a6 i = (r : EReal))
    ∧ (∀ i, ∃ r : ℝ, a7 i = (r : EReal))
    ∧ (∀ R : Fin 8192, ∃ J : Fin 8192, IntOp.cmpi .sgt (a1 (ix2 R J)) 0#32 = 1#1) := by
  have e := congrFun h ix0
  unfold fn fn_part1 fn_part2 at e
  dsimp only at e
  obtain ⟨e, e10⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  refine ⟨fun i => real_of_abs_lt _ (Host.reduce_andi_all _ _ _ _ _ e0 i), fun i => real_of_abs_lt _ (Host.reduce_andi_all _ _ _ _ _ e2 i),
    fun i => real_of_abs_lt _ (Host.reduce_andi_all _ _ _ _ _ e3 i), fun i => real_of_abs_lt _ (Host.reduce_andi_all _ _ _ _ _ e4 i),
    fun i => real_of_abs_lt _ (Host.reduce_andi_all _ _ _ _ _ e5 i), fun i => real_of_abs_lt _ (Host.reduce_andi_all _ _ _ _ _ e6 i),
    fun i => real_of_abs_lt _ (Host.reduce_andi_all _ _ _ _ _ e7 i), fun R => ?_⟩
  have hrow := Host.reduce_andi_all _ _ _ _ _ e10 (ix1 R)
  have hR : S8192x8192.Reduces [1] S8192 := by decide
  rw [Host.reduce_eq_fold_single IntOp.ori _ _ Facts.reducesTo_S8192x8192_S8192_d1 hR Facts.h_S_] at hrow
  obtain ⟨J, -, hJ⟩ := fold_ori_eq_one _ _ hrow
  refine ⟨J, ?_⟩
  have hl : hR.lift (ix1 R) J = ix2 R J := funext fun a => Fin.ext (by
    match a with
    | ⟨0, _⟩ => rfl
    | ⟨1, _⟩ => rfl)
  have hJ' := hJ
  simp only [Function.comp] at hJ'
  rw [hl] at hJ'
  exact hJ'

end Cert.PreDecode

end
-- ==== Proof.Values.lean ====
/-
  The attention kernel's result array, entry by entry. The blocks the body meets at a grid point are rows of the
  projected queries, keys and values and a tile of the adjacency mask; over a query block's eight key blocks the
  carried row maximum, normaliser and numerator follow the block recursion of a softmax-weighted sum, and the
  block written back at the last key block is the numerator over the normaliser.
-/
import proofs.«152400_j87531433493194_2_alg».proof.Proof.PreDecode
import Idealize.ShloMosaic.Lib.Pipeline.Value

set_option maxRecDepth 16384

noncomputable section

open Idealize.ShloMosaic Idealize.ShloMosaic.TcCoe Idealize.SL.Sem
open Idealize.ShloMosaic.Pipeline (Dat)

namespace Cert.KernelIdeal.Values

open Cert.KernelIdeal Cert.KernelIdeal.Gen Cert.KernelIdeal.Pieces Cert.KernelIdeal.StepAt Cert.KernelIdeal.Carried
open Cert.OnlineSoftmax ValueIdx

variable (m : (ℓ : Loc nD τ sig) → Buf (Elt Ideal) ℓ) (c : Dev nD)

/-- The arrays the four input windows stage: the projected queries, keys and values, and the adjacency mask. -/
def Qa : FVec Ideal S8192x64 .bf16 := V m c main_v4
def Ka : FVec Ideal S8192x64 .bf16 := V m c main_v9
def Va : FVec Ideal S8192x64 .bf16 := V m c main_v14
def Aa : IVec S8192x8192 32 := V m c main_arg1

/-- Row (or column) `r` of block `b`, among the 8192. -/
def gidx (b : ℕ) (r : Fin 1024) : Fin 8192 := ⟨(1024 * b + r.val) % 8192, Nat.mod_lt _ (by decide)⟩

theorem gidx_val (b : ℕ) (hb : b < 8) (r : Fin 1024) : (gidx b r).val = 1024 * b + r.val := by
  have := r.isLt
  show (1024 * b + r.val) % 8192 = _
  exact Nat.mod_eq_of_lt (by omega)

theorem idx_facts : ∀ t : Fin cfg0.N,
    win0_0.index t 0 = t.val / 8 ∧ win0_0.index t 1 = 0 ∧ win0_1.index t 0 = t.val % 8 ∧ win0_1.index t 1 = 0
    ∧ win0_2.index t 0 = t.val % 8 ∧ win0_2.index t 1 = 0 ∧ win0_3.index t 0 = t.val / 8 ∧ win0_3.index t 1 = t.val % 8
    ∧ win0_4.index t 0 = t.val / 8 ∧ win0_4.index t 1 = 0 :=
  (by decide +kernel : ∀ t : Fin grid0.N, _)

theorem qB_apply (t : Fin cfg0.N) (r : Fin 1024) (k : Fin 64) :
    qB m c t (ix2 r k) = Qa m c (ix2 (gidx (t.val / 8) r) k) := by
  have hN : cfg0.N = 64 := N_0
  have ht := t.isLt
  have hi := idx_facts t
  have hg := gidx_val (t.val / 8) (by omega) r
  unfold qB iblk Qa
  rw [View.read_apply]
  show V m c main_v4 _ = V m c main_v4 _
  congr 1
  funext a
  apply Fin.ext
  match a with
  | ⟨0, _⟩ => show win0_0.index t 0 * 1024 + 1 * r.val = (gidx (t.val / 8) r).val; rw [hi.1, hg]; omega
  | ⟨1, _⟩ => show win0_0.index t 1 * 64 + 1 * k.val = k.val; rw [hi.2.1]; omega

theorem kB_apply (t : Fin cfg0.N) (j : Fin 1024) (k : Fin 64) :
    kB m c t (ix2 j k) = Ka m c (ix2 (gidx (t.val % 8) j) k) := by
  have hi := idx_facts t
  have hg := gidx_val (t.val % 8) (by omega) j
  unfold kB iblk Ka
  rw [View.read_apply]
  show V m c main_v9 _ = V m c main_v9 _
  congr 1
  funext a
  apply Fin.ext
  match a with
  | ⟨0, _⟩ => show win0_1.index t 0 * 1024 + 1 * j.val = (gidx (t.val % 8) j).val; rw [hi.2.2.1, hg]; omega
  | ⟨1, _⟩ => show win0_1.index t 1 * 64 + 1 * k.val = k.val; rw [hi.2.2.2.1]; omega

theorem vB_apply (t : Fin cfg0.N) (j : Fin 1024) (d : Fin 64) :
    vB m c t (ix2 j d) = Va m c (ix2 (gidx (t.val % 8) j) d) := by
  have hi := idx_facts t
  have hg := gidx_val (t.val % 8) (by omega) j
  unfold vB iblk Va
  rw [View.read_apply]
  show V m c main_v14 _ = V m c main_v14 _
  congr 1
  funext a
  apply Fin.ext
  match a with
  | ⟨0, _⟩ => show win0_2.index t 0 * 1024 + 1 * j.val = (gidx (t.val % 8) j).val; rw [hi.2.2.2.2.1, hg]; omega
  | ⟨1, _⟩ => show win0_2.index t 1 * 64 + 1 * d.val = d.val; rw [hi.2.2.2.2.2.1]; omega

theorem aB_apply (t : Fin cfg0.N) (r j : Fin 1024) :
    aB m c t (ix2 r j) = Aa m c (ix2 (gidx (t.val / 8) r) (gidx (t.val % 8) j)) := by
  have hN : cfg0.N = 64 := N_0
  have ht := t.isLt
  have hi := idx_facts t
  have hg := gidx_val (t.val / 8) (by omega) r
  have hg' := gidx_val (t.val % 8) (by omega) j
  unfold aB iblk Aa
  rw [View.read_apply]
  show V m c main_arg1 _ = V m c main_arg1 _
  congr 1
  funext a
  apply Fin.ext
  match a with
  | ⟨0, _⟩ => show win0_3.index t 0 * 1024 + 1 * r.val = (gidx (t.val / 8) r).val; rw [hi.2.2.2.2.2.2.1, hg]; omega
  | ⟨1, _⟩ => show win0_3.index t 1 * 1024 + 1 * j.val = (gidx (t.val % 8) j).val; rw [hi.2.2.2.2.2.2.2.1, hg']; omega

/-! ## The scores and values of a whole row -/

/-- The masked, scaled score of query row `R` against key `j` of key block `b`. -/
def sG (R : Fin 8192) (b : ℕ) (j : Fin 1024) : EReal :=
  Scalar.select (IntOp.cmpi .sgt (Aa m c (ix2 R (gidx b j))) 0#32)
    ((∑ k : Fin 64, Qa m c (ix2 R k) * Ka m c (ix2 (gidx b j) k)) * Ideal.ofBits .f32 0x3E000000#32) ⊥

/-- Feature `d` of value `j` of key block `b`. -/
def vG (d : Fin 64) (b : ℕ) (j : Fin 1024) : EReal := Va m c (ix2 (gidx b j) d)

theorem score_eq (t : Fin cfg0.N) (r : Fin 1024) :
    score (qB m c t) (kB m c t) (aB m c t) r = sG m c (gidx (t.val / 8) r) (t.val % 8) := by
  funext j
  unfold score sG
  have e : (∑ k : Fin 64, qB m c t (ix2 r k) * kB m c t (ix2 j k))
      = ∑ k : Fin 64, Qa m c (ix2 (gidx (t.val / 8) r) k) * Ka m c (ix2 (gidx (t.val % 8) j) k) :=
    Finset.sum_congr rfl fun k _ => by rw [qB_apply, kB_apply]
  rw [aB_apply, e]

/-- THE CARRIED BUFFERS, ROW BY ROW: after the body at point `t` = (query block `t / 8`, key block `t % 8`) they hold
    the recursion's maximum, normaliser and numerator after `t % 8 + 1` key blocks of the row's scores. -/
theorem carried_values : ∀ (n : ℕ) (t : Fin cfg0.N), t.val = n → ∀ r : Fin 1024,
    (outsAt0 m c t.val t.isLt).2.1 (ix2 r 0) = M (sG m c (gidx (t.val / 8) r)) (t.val % 8 + 1)
    ∧ (outsAt0 m c t.val t.isLt).2.2.1 (ix2 r 0) = L (sG m c (gidx (t.val / 8) r)) (t.val % 8 + 1)
    ∧ ∀ d : Fin 64, (outsAt0 m c t.val t.isLt).2.2.2 (ix2 r d)
        = A (sG m c (gidx (t.val / 8) r)) (vG m c d) (t.val % 8 + 1) := by
  intro n
  induction n with
  | zero =>
    intro t ht r
    obtain ⟨e0, e1, e2⟩ := carried_eq m c t
    have h0 : t.val % 8 = 0 := by omega
    have p0 : prevM m c t = k0_pay4 (F := Ideal) := by unfold prevM; rw [if_pos h0]
    have p1 : prevL m c t = k0_pay5 (F := Ideal) := by unfold prevL; rw [if_pos h0]
    have p2 : prevA m c t = k0_pay6 (F := Ideal) := by unfold prevA; rw [if_pos h0]
    rw [e0, e1, e2, p0, p1, p2, h0]
    have hs := score_eq m c t r
    rw [h0] at hs
    refine ⟨step_M _ _ _ _ r _ 0 hs (pay4_apply _), step_L _ _ _ _ _ r _ 0 hs (pay4_apply _) (pay5_apply _), fun d => ?_⟩
    exact step_A _ _ _ _ _ _ r d _ (vG m c d) 0 hs (fun j => by rw [vB_apply, h0]; rfl) (pay4_apply _) (pay6_apply _)
  | succ n ih =>
    intro t ht r
    obtain ⟨e0, e1, e2⟩ := carried_eq m c t
    have hN : cfg0.N = 64 := N_0
    have hlt := t.isLt
    rw [e0, e1, e2]
    have hs := score_eq m c t r
    by_cases h0 : t.val % 8 = 0
    · have p0 : prevM m c t = k0_pay4 (F := Ideal) := by unfold prevM; rw [if_pos h0]
      have p1 : prevL m c t = k0_pay5 (F := Ideal) := by unfold prevL; rw [if_pos h0]
      have p2 : prevA m c t = k0_pay6 (F := Ideal) := by unfold prevA; rw [if_pos h0]
      rw [p0, p1, p2, h0]
      rw [h0] at hs
      refine ⟨step_M _ _ _ _ r _ 0 hs (pay4_apply _), step_L _ _ _ _ _ r _ 0 hs (pay4_apply _) (pay5_apply _), fun d => ?_⟩
      exact step_A _ _ _ _ _ _ r d _ (vG m c d) 0 hs (fun j => by rw [vB_apply, h0]; rfl) (pay4_apply _) (pay6_apply _)
    · obtain ⟨i0, i1, i2⟩ := ih ⟨t.val - 1, by omega⟩ (by show t.val - 1 = n; omega) r
      have hd : (t.val - 1) / 8 = t.val / 8 := by omega
      have hm : (t.val - 1) % 8 + 1 = t.val % 8 := by omega
      simp only [hd, hm] at i0 i1 i2
      have p0 : prevM m c t = (outsAt0 m c (t.val - 1) (Nat.lt_of_le_of_lt (Nat.sub_le _ _) t.isLt)).2.1 := by
        unfold prevM; rw [if_neg h0]
      have p1 : prevL m c t = (outsAt0 m c (t.val - 1) (Nat.lt_of_le_of_lt (Nat.sub_le _ _) t.isLt)).2.2.1 := by
        unfold prevL; rw [if_neg h0]
      have p2 : prevA m c t = (outsAt0 m c (t.val - 1) (Nat.lt_of_le_of_lt (Nat.sub_le _ _) t.isLt)).2.2.2 := by
        unfold prevA; rw [if_neg h0]
      rw [p0, p1, p2]
      refine ⟨step_M _ _ _ _ r _ _ hs i0, step_L _ _ _ _ _ r _ _ hs i0 i1, fun d => ?_⟩
      exact step_A _ _ _ _ _ _ r d _ (vG m c d) _ hs (fun j => by rw [vB_apply]; rfl) i0 (i2 d)

/-! ## The result array -/

/-- The kernel's result, entry by entry: the numerator over the normaliser after all eight key blocks. -/
def H : FVec Ideal S8192x64 .f32 := fun i =>
  Ideal.div (A (sG m c (i 0)) (vG m c (i 1)) 8) (L (sG m c (i 0)) 8)

/-- The output block written back after query block `q`'s last key block: rows `1024 q …` of `H`. -/
def blockOfH (q : ℕ) : FVec Ideal S1024x64 .f32 := fun y => H m c (ix2 (gidx q (y 0)) (y 1))

/-- At a query block's last key block the body's output block is that block of `H`. -/
theorem output_block (t : Fin cfg0.N) (h7 : t.val % 8 = 7) :
    k0_pay3 (F := Ideal) (accNew (qB m c t) (kB m c t) (vB m c t) (aB m c t) (prevM m c t) (prevA m c t))
        (lNew (qB m c t) (kB m c t) (aB m c t) (prevM m c t) (prevL m c t))
      = blockOfH m c (t.val / 8) := by
  funext y
  obtain ⟨r, d, rfl⟩ : ∃ (r : Fin 1024) (d : Fin 64), y = ix2 r d := ⟨y 0, y 1, eq_ix2 y⟩
  obtain ⟨e0, e1, e2⟩ := carried_eq m c t
  obtain ⟨i0, i1, i2⟩ := carried_values m c t.val t rfl r
  rw [e1] at i1
  have i2' := i2 d
  rw [e2] at i2'
  rw [out_apply, i1, i2', h7]
  rfl

/-- A block of any array read through the output window at point `t`: rows `1024 (t / 8) …`. -/
theorem read_blk (G : FVec Ideal S8192x64 .f32) (t : Fin cfg0.N) :
    (cfg0.win 4).cut (grid0.coords t) (fun y : S1024x64.Idx => G (ix2 (gidx (t.val / 8) (y 0)) (y 1)))
      = ((cfg0.win 4).blk t).view.read (Elt Ideal) G := by
  have hN : cfg0.N = 64 := N_0
  have ht := t.isLt
  have hi := idx_facts t
  have hg : ∀ r : Fin 1024, (gidx (t.val / 8) r).val = 1024 * (t.val / 8) + r.val := gidx_val (t.val / 8) (by omega)
  funext y
  rw [View.read_apply]
  show G (ix2 (gidx (t.val / 8) ((cfg0.win 4).xinj (grid0.coords t) y 0)) ((cfg0.win 4).xinj (grid0.coords t) y 1)) = G _
  refine congrArg G (funext fun a => Fin.ext ?_)
  match a with
  | ⟨0, _⟩ =>
    show (gidx (t.val / 8) ⟨(y 0).val, _⟩).val = win0_4.index t 0 * 1024 + 1 * (y 0).val
    rw [hi.2.2.2.2.2.2.2.2.1, hg]
    show 1024 * (t.val / 8) + (y 0).val = _
    omega
  | ⟨1, _⟩ => show (y 1).val = win0_4.index t 1 * 64 + 1 * (y 1).val; rw [hi.2.2.2.2.2.2.2.2.2]; omega

/-- WHAT A FLUSHING POINT WRITES BACK is its block of `H`. -/
theorem flushed_eq (t : Fin cfg0.N) (hf : (cfg0.win 4).flush t = true) :
    (dats m 0 c).flushed 4 t = ((cfg0.win 4).blk t).view.read (Elt Ideal) (H m c) := by
  have h7 : t.val % 8 = 7 := (flush0_4 t).mp hf
  show (cfg0.win 4).cut (grid0.coords t) ((dats m 0 c).after 4 t) = _
  rw [after0_4, output_eq m c t h7, output_block m c t h7]
  unfold blockOfH
  exact read_blk (H m c) t

/-- An index of the result array is in point `t`'s block iff each coordinate is in the block's range. -/
theorem mem_blk (t : Fin cfg0.N) (i : S8192x64.Idx) :
    i ∈ ((cfg0.win 4).blk t).view.set ↔ ∀ a : Fin 2, win0_4.index t a * S1024x64.size a ≤ (i a).val ∧ (i a).val < win0_4.index t a * S1024x64.size a + S1024x64.size a := by
  show i ∈ ((View.whole main_v15).slice (win0_4.rect t)).set ↔ _
  rw [View.set_slice_whole, Rect.mem_set_unit]
  exact Iff.rfl

/-- THE RESULT ARRAY after the run is `H`: row `R` is written back at the last key block of query block `R / 1024`. -/
theorem final : (dats m 0 c).arrAt 4 cfg0.N = H m c := by
  have hN : cfg0.N = 64 := N_0
  refine (dats m 0 c).arrAt_eq_of_cover 4 (H m c) (flushed_eq m c) fun i => ?_
  have h0 : (i 0).val < 8192 := (i 0).isLt
  have h1 : (i 1).val < 64 := (i 1).isLt
  let t : Fin cfg0.N := ⟨8 * ((i 0).val / 1024) + 7, by omega⟩
  have hi := idx_facts t
  have hv : t.val = 8 * ((i 0).val / 1024) + 7 := rfl
  refine ⟨t, (flush0_4 t).mpr (by omega), ?_⟩
  rw [mem_blk]
  intro a
  match a with
  | ⟨0, _⟩ => show win0_4.index t 0 * 1024 ≤ (i 0).val ∧ (i 0).val < win0_4.index t 0 * 1024 + 1024; rw [hi.2.2.2.2.2.2.2.2.1]; omega
  | ⟨1, _⟩ => show win0_4.index t 1 * 64 ≤ (i 1).val ∧ (i 1).val < win0_4.index t 1 * 64 + 64; rw [hi.2.2.2.2.2.2.2.2.2]; omega

end Cert.KernelIdeal.Values

end
-- ==== Proof.Bridge.lean ====
/-
  The two attention outputs are one function. Row by row, the kernel's numerator over normaliser after eight key
  blocks is the softmax-weighted sum of the values (the block recursion), the reference's is the same sum written over
  all 8192 keys at once; the scaled scores agree because multiplying by 1/8 is dividing by 8, and the masked entries
  are -∞ on both sides. Every row has an unmasked key and all projections are real numbers, by the precondition.
-/
import proofs.«152400_j87531433493194_2_alg».proof.Proof.Values

set_option maxRecDepth 16384

noncomputable section

open Idealize.ShloMosaic Idealize.ShloMosaic.TcCoe Idealize.SL.Sem

namespace Cert.Bridge

open Cert.KernelIdeal.Values Cert.ReferenceIdeal.RefValue Cert.ReferenceIdeal.Read Cert.OnlineSoftmax ValueIdx

/-! ## 8192 keys as eight blocks of 1024 -/

theorem gidx_div_mod (J : Fin 8192) : gidx (J.val / 1024) ⟨J.val % 1024, Nat.mod_lt _ (by decide)⟩ = J :=
  Fin.ext (by
    have := J.isLt
    show (1024 * (J.val / 1024) + J.val % 1024) % 8192 = J.val
    omega)

/-- A sum over the 8192 keys is the sum over the eight blocks of the sums over each block's 1024 keys. -/
theorem sum_blocks {α : Type} [AddCommMonoid α] (f : Fin 8192 → α) :
    ∑ J, f J = ∑ b ∈ Finset.range 8, ∑ j : Fin 1024, f (gidx b j) := by
  have e : ∑ J, f J = ∑ p : Fin 8 × Fin 1024, f ((finProdFinEquiv : Fin 8 × Fin 1024 ≃ Fin 8192) p) :=
    (Equiv.sum_comp (finProdFinEquiv : Fin 8 × Fin 1024 ≃ Fin 8192) f).symm
  rw [e, Fintype.sum_prod_type, ← Fin.sum_univ_eq_sum_range (fun b => ∑ j : Fin 1024, f (gidx b j)) 8]
  refine Finset.sum_congr rfl fun b _ => Finset.sum_congr rfl fun j _ => congrArg f (Fin.ext ?_)
  have hb := b.isLt
  have hj := j.isLt
  show j.val + 1024 * b.val = (1024 * b.val + j.val) % 8192
  omega

/-- The maximum over the 8192 keys is the running maximum after the eight blocks. -/
theorem max_blocks (f : Fin 8192 → EReal) :
    (Finset.univ : Finset (Fin 8192)).fold max ⊥ f = M (fun b j => f (gidx b j)) 8 := by
  apply le_antisymm
  · refine (Finset.fold_max_le _).2 ⟨bot_le, fun J _ => ?_⟩
    have h := le_M (fun b j => f (gidx b j)) 8 (J.val / 1024) (by have := J.isLt; omega) ⟨J.val % 1024, Nat.mod_lt _ (by decide)⟩
    simp only [gidx_div_mod] at h
    exact h
  · exact M_le _ _ 8 fun b _ j => (Finset.le_fold_max _).2 (Or.inr ⟨gidx b j, Finset.mem_univ _, le_rfl⟩)

/-! ## Real projections -/

/-- A contraction of reals plus a real is a real. -/
theorem real_affine {n : ℕ} (a b : Fin n → EReal) (c : EReal) (ha : ∀ k, ∃ r : ℝ, a k = (r : EReal))
    (hb : ∀ k, ∃ r : ℝ, b k = (r : EReal)) (hc : ∃ r : ℝ, c = (r : EReal)) :
    ∃ r : ℝ, (∑ k, a k * b k) + c = (r : EReal) := by
  choose ar har using ha
  choose br hbr using hb
  obtain ⟨cr, rfl⟩ := hc
  refine ⟨(∑ k, ar k * br k) + cr, ?_⟩
  rw [EReal.coe_add, coe_sum]
  congr 1
  exact Finset.sum_congr rfl fun k _ => by rw [har k, hbr k, EReal.coe_mul]

section Projections

variable (x0 : FVec Ideal Cert.ReferenceIdeal.S8192x128 .f32) (x1 : IVec Cert.ReferenceIdeal.S8192x8192 32)
  (x2 : FVec Ideal Cert.ReferenceIdeal.S128x64 .f32) (x3 : FVec Ideal Cert.ReferenceIdeal.S64 .f32)
  (x4 : FVec Ideal Cert.ReferenceIdeal.S128x64 .f32) (x5 : FVec Ideal Cert.ReferenceIdeal.S64 .f32)
  (x6 : FVec Ideal Cert.ReferenceIdeal.S128x64 .f32) (x7 : FVec Ideal Cert.ReferenceIdeal.S64 .f32)
  (h0 : ∀ i, ∃ r : ℝ, x0 i = (r : EReal))

include h0

theorem q_real (h2 : ∀ i, ∃ r : ℝ, x2 i = (r : EReal)) (h3 : ∀ i, ∃ r : ℝ, x3 i = (r : EReal)) (i) :
    ∃ r : ℝ, val_main_v3 (F := Ideal) x0 x2 x3 i = (r : EReal) := by
  rw [val_main_v3_apply, val_main_v0_apply, val_main_v2_apply, val_main_v1_apply]
  exact real_affine _ _ _ (fun k => h0 _) (fun k => h2 _) (h3 _)

theorem k_real (h4 : ∀ i, ∃ r : ℝ, x4 i = (r : EReal)) (h5 : ∀ i, ∃ r : ℝ, x5 i = (r : EReal)) (i) :
    ∃ r : ℝ, val_main_v7 (F := Ideal) x0 x4 x5 i = (r : EReal) := by
  rw [val_main_v7_apply, val_main_v4_apply, val_main_v6_apply, val_main_v5_apply]
  exact real_affine _ _ _ (fun k => h0 _) (fun k => h4 _) (h5 _)

theorem v_real (h6 : ∀ i, ∃ r : ℝ, x6 i = (r : EReal)) (h7 : ∀ i, ∃ r : ℝ, x7 i = (r : EReal)) (i) :
    ∃ r : ℝ, val_main_v11 (F := Ideal) x0 x6 x7 i = (r : EReal) := by
  rw [val_main_v11_apply, val_main_v8_apply, val_main_v10_apply, val_main_v9_apply]
  exact real_affine _ _ _ (fun k => h0 _) (fun k => h6 _) (h7 _)

end Projections

/-- A contraction of reals is a real. -/
theorem real_dot {n : ℕ} (a b : Fin n → EReal) (ha : ∀ k, ∃ r : ℝ, a k = (r : EReal))
    (hb : ∀ k, ∃ r : ℝ, b k = (r : EReal)) : ∃ r : ℝ, (∑ k, a k * b k) = (r : EReal) := by
  choose ar har using ha
  choose br hbr using hb
  refine ⟨∑ k, ar k * br k, ?_⟩
  rw [coe_sum]
  exact Finset.sum_congr rfl fun k _ => by rw [har k, hbr k, EReal.coe_mul]

section Main

variable (m : (ℓ : Loc Cert.KernelIdeal.nD Cert.KernelIdeal.τ Cert.KernelIdeal.sig) → Buf (Elt Ideal) ℓ)
  (c : Dev Cert.KernelIdeal.nD)
variable (x0 : FVec Ideal Cert.ReferenceIdeal.S8192x128 .f32) (x1 : IVec Cert.ReferenceIdeal.S8192x8192 32)
  (x2 : FVec Ideal Cert.ReferenceIdeal.S128x64 .f32) (x3 : FVec Ideal Cert.ReferenceIdeal.S64 .f32)
  (x4 : FVec Ideal Cert.ReferenceIdeal.S128x64 .f32) (x5 : FVec Ideal Cert.ReferenceIdeal.S64 .f32)
  (x6 : FVec Ideal Cert.ReferenceIdeal.S128x64 .f32) (x7 : FVec Ideal Cert.ReferenceIdeal.S64 .f32)

/-- THE TWO ATTENTION OUTPUTS ARE ONE FUNCTION of the projections and the mask. -/
theorem H_eq_href
    (hQ : Qa m c = val_main_v3 (F := Ideal) x0 x2 x3) (hK : Ka m c = val_main_v7 (F := Ideal) x0 x4 x5)
    (hV : Va m c = val_main_v11 (F := Ideal) x0 x6 x7) (hA : Aa m c = x1)
    (hq : ∀ i, ∃ r : ℝ, val_main_v3 (F := Ideal) x0 x2 x3 i = (r : EReal))
    (hk : ∀ i, ∃ r : ℝ, val_main_v7 (F := Ideal) x0 x4 x5 i = (r : EReal))
    (hv : ∀ i, ∃ r : ℝ, val_main_v11 (F := Ideal) x0 x6 x7 i = (r : EReal))
    (hrow : ∀ R : Fin 8192, ∃ J : Fin 8192, IntOp.cmpi .sgt (x1 (ix2 R J)) 0#32 = 1#1) :
    H m c = val_main_v30 (F := Ideal) x0 x1 x2 x3 x4 x5 x6 x7 := by
  funext i
  obtain ⟨R, d, rfl⟩ : ∃ (R : Fin 8192) (d : Fin 64), i = ix2 R d := ⟨i 0, i 1, eq_ix2 i⟩
  rw [href_eq]
  show Ideal.div (A (sG m c R) (vG m c d) 8) (L (sG m c R) 8) = _
  have h8 : (8 : ℝ) ≠ 0 := by norm_num
  -- the scores agree: a product with 1/8 is a quotient by 8, and a masked entry is -∞ on both sides
  have hsc : ∀ b j, sG m c R b j = sR x0 x1 x2 x3 x4 x5 R (gidx b j) := by
    intro b j
    unfold sG
    rw [sR_eq, hQ, hK, hA, Cert.Consts.ofBits_8, Cert.Consts.ofBits_eighth, Cert.Consts.ofBits_neg_inf, Ideal.div_coe h8]
  -- an unmasked score is a real number
  have hreal : ∀ J : Fin 8192, ∃ r : ℝ,
      Ideal.div (∑ k : Fin 64, val_main_v3 (F := Ideal) x0 x2 x3 (ix2 R k) * val_main_v7 (F := Ideal) x0 x4 x5 (ix2 J k))
        (Ideal.ofBits .f32 0x41000000#32) = (r : EReal) := by
    intro J
    obtain ⟨r, hr⟩ := real_dot (fun k : Fin 64 => val_main_v3 (F := Ideal) x0 x2 x3 (ix2 R k))
      (fun k : Fin 64 => val_main_v7 (F := Ideal) x0 x4 x5 (ix2 J k)) (fun k => hq _) (fun k => hk _)
    refine ⟨r * (1 / 8), ?_⟩
    rw [Cert.Consts.ofBits_8, Ideal.div_coe h8, EReal.coe_mul]
    exact congrArg (· * ((1 / 8 : ℝ) : EReal)) hr
  have hs : ∀ b j, sG m c R b j ≠ ⊤ := by
    intro b j
    rw [hsc, sR_eq]
    unfold Scalar.select
    split
    · obtain ⟨r, hr⟩ := hreal (gidx b j)
      rw [hr]; exact EReal.coe_ne_top r
    · rw [Cert.Consts.ofBits_neg_inf]; exact bot_ne_top
  choose vr hvr using hv
  have hvG : ∀ b j, vG m c d b j = ((vr (ix2 (gidx b j) d) : ℝ) : EReal) := by
    intro b j
    unfold vG
    rw [hV]
    exact hvr _
  have hne : ∃ b < 8, ∃ j, sG m c R b j ≠ ⊥ := by
    obtain ⟨J, hJ⟩ := hrow R
    refine ⟨J.val / 1024, by have := J.isLt; omega, ⟨J.val % 1024, Nat.mod_lt _ (by decide)⟩, ?_⟩
    rw [hsc, gidx_div_mod, sR_eq, hJ, select_one]
    obtain ⟨r, hr⟩ := hreal J
    rw [hr]; exact EReal.coe_ne_bot r
  obtain ⟨hq1, hq2⟩ := quotient_eq (sG m c R) (vG m c d) hs (fun b j => vr (ix2 (gidx b j) d)) hvG 8 hne
  have hM : mr x0 x1 x2 x3 x4 x5 R = M (sG m c R) 8 := by
    rw [mr_eq, max_blocks]
    exact congrArg (fun s => M s 8) (funext fun b => funext fun j => (hsc b j).symm)
  have hL : lr x0 x1 x2 x3 x4 x5 R = L (sG m c R) 8 := by
    rw [lr_eq, sum_blocks, hq2, hM]
    exact Finset.sum_congr rfl fun b _ => Finset.sum_congr rfl fun j _ => by rw [hsc]
  rw [hq1, sum_blocks]
  refine Finset.sum_congr rfl fun b _ => Finset.sum_congr rfl fun j _ => ?_
  rw [hM, hL, ← hsc b j]
  unfold vG
  rw [hV]

end Main

end Cert.Bridge

end
-- ==== Proof.KernelRun.lean ====
/-
  The kernel's run, read: the projections the host computes before the attention call are the reference's, the array
  the call leaves is the attention output, and the lines after it — relu, the output projection, the mean over the
  rows — are applied to it.
-/
import proofs.«152400_j87531433493194_2_alg».proof.Proof.Bridge
import Idealize.ShloMosaic.Lib.StableHlo.Run
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Run

open Cert.KernelIdeal Cert.KernelIdeal.Gen Cert.KernelIdeal.Values

variable (m : (ℓ : Loc nD τ sig) → Buf (Elt Ideal) ℓ) (ρ : Dev nD → PrngReg)

/-- The lines after the attention call: relu, the output projection plus its bias, the mean over the 8192 rows. -/
def tail (h : FVec Ideal S8192x64 .f32) (Wo : FVec Ideal S64x2 .f32) (bo : FVec Ideal S2 .f32) : FVec Ideal S2 .f32 :=
  Host.divf (F := Ideal)
    (Host.reduceAdd (F := Ideal)
      (addf (Host.dotGeneral (F := Ideal) dot_S8192x64_S64x2_S8192x2_1_0_0_1_n_n none
          (maximumf h (broadcastInDim S8192x64 ![] bcast_S_S8192x64 (constant (F := Ideal) S_ .f32 0x00000000#32))) Wo)
        (broadcastInDim S8192x2 ![0, 1] bcast_S1x2_S8192x2_0_1 (broadcastInDim S1x2 ![1] bcast_S2_S1x2_1 bo)))
      (constant (F := Ideal) S_ .f32 0x00000000#32) reducesTo_S8192x2_S2_d0 h_S_)
    (broadcastInDim S2 ![] bcast_S_S2 (constant (F := Ideal) S_ .f32 0x46000000#32))

/-- The projected queries the first window stages are the reference's projection of the same arguments. -/
theorem Qa_eq (c : Dev nD) :
    Qa m c = Cert.ReferenceIdeal.Read.val_main_v3 (F := Ideal) (m ((c : Thread nD τ).loc main_arg0))
      (m ((c : Thread nD τ).loc main_arg2)) (m ((c : Thread nD τ).loc main_arg3)) := by
  unfold Qa
  show StableHlo.after hostOps0 (fun b => m (c, b)) (Proc.devRef .tc main_v4) = _
  after_results
  rfl

/-- The projected keys likewise. -/
theorem Ka_eq (c : Dev nD) :
    Ka m c = Cert.ReferenceIdeal.Read.val_main_v7 (F := Ideal) (m ((c : Thread nD τ).loc main_arg0))
      (m ((c : Thread nD τ).loc main_arg4)) (m ((c : Thread nD τ).loc main_arg5)) := by
  unfold Ka
  show StableHlo.after hostOps0 (fun b => m (c, b)) (Proc.devRef .tc main_v9) = _
  after_results
  rfl

/-- The projected values likewise. -/
theorem Va_eq (c : Dev nD) :
    Va m c = Cert.ReferenceIdeal.Read.val_main_v11 (F := Ideal) (m ((c : Thread nD τ).loc main_arg0))
      (m ((c : Thread nD τ).loc main_arg6)) (m ((c : Thread nD τ).loc main_arg7)) := by
  unfold Va
  show StableHlo.after hostOps0 (fun b => m (c, b)) (Proc.devRef .tc main_v14) = _
  after_results
  rfl

/-- The mask window stages the adjacency argument itself. -/
theorem Aa_eq (c : Dev nD) : Aa m c = m ((c : Thread nD τ).loc main_arg1) := by
  unfold Aa
  exact V_main_arg1 m c

theorem result_eq (c : Dev nD) :
    Pipeline.afterTail₀ cfgs (dats m) 0 (V0 m) [hostOps1, hostOps1_1] c main_v23
      = tail (H m c) (m ((c : Thread nD τ).loc main_arg8)) (m ((c : Thread nD τ).loc main_arg9)) := by
  have e15 : Pipeline.withArrays (cfgs 0).spec c (V0 m c) (fun w => (dats m 0 c).arrAt w (cfgs 0).N) (Proc.devRef .tc main_v15) = H m c :=
    (Pipeline.withArrays_arr spec0 launch0.win.arr_inj c (V0 m c) (fun w => (dats m 0 c).arrAt w (cfgs 0).N) 4).trans (final m c)
  have e8 : Pipeline.withArrays (cfgs 0).spec c (V0 m c) (fun w => (dats m 0 c).arrAt w (cfgs 0).N) (Proc.devRef .tc main_arg8)
      = m ((c : Thread nD τ).loc main_arg8) :=
    (Pipeline.withArrays_of_ne spec0 c (V0 m c) (fun w => (dats m 0 c).arrAt w (cfgs 0).N) main_arg8
      (by exact (by decide : ∀ w, Pipeline.arrRef spec0 w ≠ main_arg8))).trans (V_main_arg8 m c)
  have e9 : Pipeline.withArrays (cfgs 0).spec c (V0 m c) (fun w => (dats m 0 c).arrAt w (cfgs 0).N) (Proc.devRef .tc main_arg9)
      = m ((c : Thread nD τ).loc main_arg9) :=
    (Pipeline.withArrays_of_ne spec0 c (V0 m c) (fun w => (dats m 0 c).arrAt w (cfgs 0).N) main_arg9
      (by exact (by decide : ∀ w, Pipeline.arrRef spec0 w ≠ main_arg9))).trans (V_main_arg9 m c)
  unfold Pipeline.afterTail₀
  simp only [hostOps1, hostOps1_1, List.flatten_cons, List.flatten_nil, List.append_nil, List.cons_append, List.nil_append]
  after_results
  refine Eq.trans (b := tail
      (Pipeline.withArrays (cfgs 0).spec c (V0 m c) (fun w => (dats m 0 c).arrAt w (cfgs 0).N) (Proc.devRef .tc main_v15))
      (Pipeline.withArrays (cfgs 0).spec c (V0 m c) (fun w => (dats m 0 c).arrAt w (cfgs 0).N) (Proc.devRef .tc main_arg8))
      (Pipeline.withArrays (cfgs 0).spec c (V0 m c) (fun w => (dats m 0 c).arrAt w (cfgs 0).N) (Proc.devRef .tc main_arg9))) rfl ?_
  rw [e15, e8, e9]

/-- THE KERNEL'S RUN, READ: every weakly fair execution ends with the result at the tail of the attention output
    `H`, and the arguments unchanged. -/
theorem run : θ_run defs (onTc (τ := τ) (main (F := Ideal))) ⟨m, fun _ => 0, ρ⟩ (fun r => ∀ c : Dev nD,
      r.2.mem ((c.tc : Thread nD τ).loc main_v23)
        = tail (H m c) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v23 (Pipeline.mem_restRefs_of main_v23 (by decide) (by decide))).trans (result_eq m c),
      ((h c).2 main_arg0 (Pipeline.mem_restRefs_of main_arg0 (by decide) (by decide))).trans (W_main_arg0 m (dats m) c),
      ((h c).1 3).trans (((dats m 0 c).arrAt_in 3 rfl _).trans ((A_eq m c 3).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main m ρ)

/-- The reference's result is the same tail of ITS attention output. -/
theorem ref_tail (x0 : FVec Ideal S8192x128 .f32) (x1 : IVec S8192x8192 32) (x2 : FVec Ideal S128x64 .f32)
    (x3 : FVec Ideal S64 .f32) (x4 : FVec Ideal S128x64 .f32) (x5 : FVec Ideal S64 .f32) (x6 : FVec Ideal S128x64 .f32)
    (x7 : FVec Ideal S64 .f32) (x8 : FVec Ideal S64x2 .f32) (x9 : FVec Ideal S2 .f32) :
    Cert.ReferenceIdeal.Read.val_main_v38 (F := Ideal) x0 x1 x2 x3 x4 x5 x6 x7 x8 x9
      = tail (Cert.ReferenceIdeal.Read.val_main_v30 (F := Ideal) x0 x1 x2 x3 x4 x5 x6 x7) x8 x9 := rfl

end Cert.KernelIdeal.Run

end
-- ==== Proof.lean ====
/-
  The certificate of a masked single-head attention, output projection and mean pool against its reference.

  At the exact (extended-real) reading both programs compute, for every query row R and feature d,
  the softmax-weighted sum over all 8192 keys J of the value v(J, d), the weights exp (s(R, J) - max_J s(R, J)) over
  their sum, where s(R, J) is (q(R) · k(J)) / 8 where the adjacency entry a(R, J) is positive and -∞ elsewhere; then relu,
  the output projection and the mean over the rows. The reference does it at once; the kernel meets the keys in
  eight blocks of 1024, carrying the running maximum m, the normaliser l and the numerator acc, each rescaled by
  exp (m - m') when the maximum moves, and divides acc by l after the last block. The law behind the rescaling,
  exp (m - m') · exp (x - m) = exp (x - m') for x ≤ m ≤ m' < ∞, holds also at -∞ (a fully masked block: exp (-∞) = 0);
  the kernel's factor 1/8 and the reference's divisor 8 give the same product; the kernel's mask fill is named -∞.
  The precondition gives what the algebra needs: every projection is a real number (the float inputs are finite), and
  every row has an unmasked key, so the normaliser is at least 1 and the quotient is the ordinary one.
-/
import proofs.«152400_j87531433493194_2_alg».proof.Defs
import proofs.«152400_j87531433493194_2_alg».proof.Proof.Gen.Kernel
import proofs.«152400_j87531433493194_2_alg».proof.Proof.Gen.Kernel.Skeleton
import proofs.«152400_j87531433493194_2_alg».proof.Proof.Gen.Kernel.Launch
import proofs.«152400_j87531433493194_2_alg».proof.Proof.Gen.Kernel.Points
import proofs.«152400_j87531433493194_2_alg».proof.Proof.Gen.Kernel.Frame
import proofs.«152400_j87531433493194_2_alg».proof.Proof.Gen.KernelIdeal
import proofs.«152400_j87531433493194_2_alg».proof.Proof.Gen.KernelIdeal.Skeleton
import proofs.«152400_j87531433493194_2_alg».proof.Proof.Gen.KernelIdeal.Launch
import proofs.«152400_j87531433493194_2_alg».proof.Proof.Gen.KernelIdeal.Points
import proofs.«152400_j87531433493194_2_alg».proof.Proof.Gen.KernelIdeal.Frame
import proofs.«152400_j87531433493194_2_alg».proof.Proof.Gen.ReferenceIdeal
import proofs.«152400_j87531433493194_2_alg».proof.Proof.Gen.ReferenceIdeal.Run
import proofs.«152400_j87531433493194_2_alg».proof.Proof.Gen.ReferenceIdeal.Read
import proofs.«152400_j87531433493194_2_alg».proof.Proof.Gen.Pre_finite_inputs
import proofs.«152400_j87531433493194_2_alg».proof.Proof.KernelRun
import Idealize.ShloMosaic.Adequacy
import Idealize.ShloMosaic.Init

set_option maxRecDepth 16384

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the mask fill is named -∞. -/
theorem preserves : Cert.preserves_Kernel_KernelIdeal :=
  IdealRules.named_const.statement Cert.KernelIdeal.κ "neg_big" .f32 0xFF333332#32 ⊥ rfl

/-- Both runs end at the same tail of the same attention output. -/
theorem algebraic : Cert.algebraic_KernelIdeal_ReferenceIdeal := by
  intro m ρ m' ρ' hpre hagree
  refine ⟨fun c => Cert.KernelIdeal.Run.tail (Cert.KernelIdeal.Values.H m c)
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)),
    Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨g0, g1, g2, g3, g4, g5, g6, g7, g8, g9⟩ := hagree c
  obtain ⟨f0, f2, f3, f4, f5, f6, f7, frow⟩ := Cert.PreDecode.decode _ _ _ _ _ _ _ _ _ _ (hpre c)
  rw [Cert.ReferenceIdeal.Read.val_main_v38_eq, g0, g1, g2, g3, g4, g5, g6, g7, g8, g9, Cert.KernelIdeal.Run.ref_tail]
  refine congrArg (fun h => Cert.KernelIdeal.Run.tail h _ _) (Eq.symm ?_)
  exact Cert.Bridge.H_eq_href m c _ _ _ _ _ _ _ _
    (Cert.KernelIdeal.Run.Qa_eq m c) (Cert.KernelIdeal.Run.Ka_eq m c) (Cert.KernelIdeal.Run.Va_eq m c)
    (Cert.KernelIdeal.Run.Aa_eq m c)
    (Cert.Bridge.q_real _ _ _ f0 f2 f3) (Cert.Bridge.k_real _ _ _ f0 f4 f5) (Cert.Bridge.v_real _ _ _ f0 f6 f7) frow

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
